-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S1024x128 : Shape := ⟨2, ![1024, 128]⟩
abbrev S128x128 : Shape := ⟨2, ![128, 128]⟩
abbrev S128x512 : Shape := ⟨2, ![128, 512]⟩
abbrev S16x128 : Shape := ⟨2, ![16, 128]⟩
abbrev S16x512 : Shape := ⟨2, ![16, 512]⟩
abbrev S16x128x1 : Shape := ⟨3, ![16, 128, 1]⟩
abbrev S16x1x512 : Shape := ⟨3, ![16, 1, 512]⟩
abbrev S16x128x512 : Shape := ⟨3, ![16, 128, 512]⟩

abbrev nBuf : Space → Nat
  | .hbm => 5
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024x128, .f32⟩
  | .hbm, ⟨3, _⟩ => ⟨S1024x1024, .f32⟩
  | .hbm, ⟨4, _⟩ => ⟨S128x1024, .f32⟩
  | .local _ .vmem, ⟨0, _⟩ => ⟨S128x128, .f32⟩
  | .local _ .vmem, ⟨1, _⟩ => ⟨S128x128, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_mult1 : BitVec 32 :=
  let c0_i32_14 : BitVec 32 := 0#32
  let c16_i32 : BitVec 32 := 16#32
  let v28 : BitVec 32 := Scalar.muli c0_i32_14 c16_i32
  v28
def k0_off1 (c0_i32_14 : BitVec 32) : Fin 2 → Nat :=
  let c16_i32 : BitVec 32 := 16#32
  let v28 : BitVec 32 := Scalar.muli c0_i32_14 c16_i32
  let v29 : BitVec 32 := v28
  let v30 : Index := Scalar.indexCast v29
  let c0_15 : Index := 0#32
  ![v30.toNat, 0]
def k0_off2 (c0_i32_14 : BitVec 32) : Fin 2 → Nat :=
  let c16_i32 : BitVec 32 := 16#32
  let v28 : BitVec 32 := Scalar.muli c0_i32_14 c16_i32
  let v29 : BitVec 32 := v28
  let v35 : Index := Scalar.indexCast v29
  let c0_16 : Index := 0#32
  ![v35.toNat, 0]
def k0_mult2 : BitVec 32 :=
  let c1_i32 : BitVec 32 := 1#32
  let c16_i32_18 : BitVec 32 := 16#32
  let v47 : BitVec 32 := Scalar.muli c1_i32 c16_i32_18
  v47
def k0_mult3 : BitVec 32 :=
  let c2_i32 : BitVec 32 := 2#32
  let c16_i32_22 : BitVec 32 := 16#32
  let v66 : BitVec 32 := Scalar.muli c2_i32 c16_i32_22
  v66
def k0_mult4 : BitVec 32 :=
  let c3_i32 : BitVec 32 := 3#32
  let c16_i32_26 : BitVec 32 := 16#32
  let v85 : BitVec 32 := Scalar.muli c3_i32 c16_i32_26
  v85
def k0_mult5 : BitVec 32 :=
  let c4_i32 : BitVec 32 := 4#32
  let c16_i32_30 : BitVec 32 := 16#32
  let v104 : BitVec 32 := Scalar.muli c4_i32 c16_i32_30
  v104
def k0_mult6 : BitVec 32 :=
  let c5_i32 : BitVec 32 := 5#32
  let c16_i32_34 : BitVec 32 := 16#32
  let v123 : BitVec 32 := Scalar.muli c5_i32 c16_i32_34
  v123
def k0_mult7 : BitVec 32 :=
  let c6_i32 : BitVec 32 := 6#32
  let c16_i32_38 : BitVec 32 := 16#32
  let v142 : BitVec 32 := Scalar.muli c6_i32 c16_i32_38
  v142
def k0_mult8 : BitVec 32 :=
  let c7_i32 : BitVec 32 := 7#32
  let c16_i32_42 : BitVec 32 := 16#32
  let v161 : BitVec 32 := Scalar.muli c7_i32 c16_i32_42
  v161
def k0_cond2 (i : grid0.Coords) : BitVec 1 :=
  let arg1 : BitVec 32 := BitVec.ofNat 32 (i 1).val
  let c7_i32_50 : BitVec 32 := 7#32
  let v186 : BitVec 1 := Scalar.cmpi .eq arg1 c7_i32_50
  let v187 : BitVec 32 := Scalar.extui v186
  let c0_i32_51 : BitVec 32 := 0#32
  let v188 : BitVec 1 := Scalar.cmpi .ne v187 c0_i32_51
  v188

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S128x1024_S1024x128_1_0 : S128x1024.Transposes [1, 0] S1024x128
  transposes_S1024x1024_S1024x1024_1_0 : S1024x1024.Transposes [1, 0] S1024x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  transposes_S128x128_p1_0_S128x128 : S128x128.Transposes [1, 0] S128x128
  h_S16x128 : 0 < S16x128.numel
  shapeCasts_S16x128_S16x128 : S16x128.ShapeCasts S16x128
  h_S16x512 : 0 < S16x512.numel
  shapeCasts_S16x512_S16x512 : S16x512.ShapeCasts S16x512
  shapeCasts_S16x128_S16x128x1 : S16x128.ShapeCasts S16x128x1
  shapeCasts_S16x512_S16x1x512 : S16x512.ShapeCasts S16x1x512
  broadcasts_S16x128x1_S16x128x512 : S16x128x1.Broadcasts S16x128x512
  broadcasts_S16x1x512_S16x128x512 : S16x1x512.Broadcasts S16x128x512
  reduces_S16x128x512_S128x512 : S16x128x512.Reduces [0] S128x512
  dot_S128x128_S128x512_S128x512_1_0_0_1_n_n_wf : DotDims.WF S128x128 S128x512 S128x512 [1] [0] [0] [1] [] []
  hrank0 : 0 < grid0.rank
  k0_mult1_dvd : 16 ∣ k0_mult1.toNat
  k0_off1_inb : ∀ (r : Fin 8), ∀ a, (k0_off1 (BitVec.ofNat 32 r.val)) a + S16x128.size a ≤ S128x128.size a
  k0_off2_inb : ∀ (r : Fin 8), ∀ a, (k0_off2 (BitVec.ofNat 32 r.val)) a + S16x512.size a ≤ S128x512.size a
  k0_mult2_dvd : 16 ∣ k0_mult2.toNat
  k0_mult3_dvd : 16 ∣ k0_mult3.toNat
  k0_mult4_dvd : 16 ∣ k0_mult4.toNat
  k0_mult5_dvd : 16 ∣ k0_mult5.toNat
  k0_mult6_dvd : 16 ∣ k0_mult6.toNat
  k0_mult7_dvd : 16 ∣ k0_mult7.toNat
  k0_mult8_dvd : 16 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x1024.size a
  hwx0_1 : ∀ i : grid0.Coords, EltTy.bits .f32 = 32 ∨ (Rect.block (s := S1024x1024) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x1024.size a
  hwx0_2 : ∀ i : grid0.Coords, EltTy.bits .f32 = 32 ∨ (Rect.block (s := S128x1024) S128x512.size (cc0_transform_2 i) (hinb0_2 i)).WholeWords (EltTy.packing .f32)

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S128x1024x1 : Shape := ⟨3, ![128, 1024, 1]⟩
abbrev S1x1024x1024 : Shape := ⟨3, ![1, 1024, 1024]⟩
abbrev S128x1024x1024 : Shape := ⟨3, ![128, 1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S1024x1024, .f32⟩
  | .hbm, ⟨4, _⟩ => ⟨S1024x1024, .f32⟩
  | .hbm, ⟨5, _⟩ => ⟨S128x1024, .f32⟩
  | .hbm, ⟨6, _⟩ => ⟨S128x1024x1, .f32⟩
  | .hbm, ⟨7, _⟩ => ⟨S1024x1024, .f32⟩
  | .hbm, ⟨8, _⟩ => ⟨S1x1024x1024, .f32⟩
  | .hbm, ⟨9, _⟩ => ⟨S128x1024x1024, .f32⟩
  | .hbm, ⟨10, _⟩ => ⟨S128x1024x1024, .f32⟩
  | .hbm, ⟨11, _⟩ => ⟨S128x1024x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S1024x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S128x1024_S128x1024x1_0_1 : S128x1024.BroadcastsInDim S128x1024x1 (![0, 1] : Fin 2 → Fin S128x1024x1.rank)
  bcast_S1024x1024_S1x1024x1024_1_2 : S1024x1024.BroadcastsInDim S1x1024x1024 (![1, 2] : Fin 2 → Fin S1x1024x1024.rank)
  bcast_S128x1024x1_S128x1024x1024_0_1_2 : S128x1024x1.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d1 : S128x1024x1024.ReducesTo [1] S128x1024
  h_S_ : 0 < S_.numel
  bcast_S_S128x1024 : S_.BroadcastsInDim S128x1024 (![] : Fin 0 → Fin S128x1024.rank)
  dot_S128x1024_S1024x1024_S128x1024_1_0_0_1_n_n_wf : DotDims.WF S128x1024 S1024x1024 S128x1024 [1] [0] [0] [1] [] []

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

class Facts : Prop extends Facts₀ where

variable [Facts]
-- ==== Proof.Steps.lean ====
/-
  What one grid point does to the three running totals, as pure functions of the point's two input tiles
  (`X`: 128 input positions by 128 rows of x; `Wb`: the same 128 input positions by 512 output columns of W) and of
  the total before the point:

    dotStep   acc + Xᵀ · Wb                       (the signed product),
    absStep   acc + |X|ᵀ · |Wb|                   (the product of absolute values),
    maxStep   max acc (the running maximum, from zero, of |X(r,p)| * |Wb(r,q)| over the tile's 128 positions r,
              taken sixteen positions at a time),
    outStep   dot + c * (max - abs)               (what the last point of a sweep writes out),
    zeroTile  the all-zero tile the first point of a sweep starts each total from.
-/
import proofs.«140068_j21912923144500_2_alg».proof.Proof.Gen.KernelIdeal.Frame

noncomputable section

namespace Cert.KernelIdeal.Steps

open Cert.KernelIdeal Cert.KernelIdeal.Gen Idealize.ShloMosaic

variable {F : FTy → Type} [FloatOps F]

/-- The all-zero tile. -/
def zeroTile : Vec F S128x512 .f32 := broadcast S128x512 (Scalar.ofBits .f32 0x00000000#32)

/-- The signed product's total after a point. -/
def dotStep (X : Vec F S128x128 .f32) (Wb : Vec F S128x512 .f32) (acc : Vec F S128x512 .f32) : Vec F S128x512 .f32 :=
  k0_pay8 X Wb acc

/-- The absolute product's total after a point. -/
def absStep (X : Vec F S128x128 .f32) (Wb : Vec F S128x512 .f32) (acc : Vec F S128x512 .f32) : Vec F S128x512 .f32 :=
  k0_pay9 X Wb acc

/-- The running maximum after a point: the tile's 128 positions in eight groups of sixteen rows. -/
def maxStep (X : Vec F S128x128 .f32) (Wb : Vec F S128x512 .f32) (acc : Vec F S128x512 .f32) : Vec F S128x512 .f32 :=
  k0_pay1
    (k0_pay16
      (k0_pay14
        (k0_pay12 k0_pay10 (k0_pay11 (View.ld X (Rect.unit ![0, 0] ![16, 128] (by decide))))
          (View.ld Wb (Rect.unit ![0, 0] ![16, 512] (by decide)))
          (View.ld X (Rect.unit ![16, 0] ![16, 128] (by decide)))
          (View.ld Wb (Rect.unit ![16, 0] ![16, 512] (by decide))))
        (k0_pay13 (View.ld X (Rect.unit ![32, 0] ![16, 128] (by decide)))
          (View.ld Wb (Rect.unit ![32, 0] ![16, 512] (by decide))))
        (View.ld X (Rect.unit ![48, 0] ![16, 128] (by decide)))
        (View.ld Wb (Rect.unit ![48, 0] ![16, 512] (by decide)))
        (View.ld X (Rect.unit ![64, 0] ![16, 128] (by decide)))
        (View.ld Wb (Rect.unit ![64, 0] ![16, 512] (by decide))))
      (k0_pay15 (View.ld X (Rect.unit ![80, 0] ![16, 128] (by decide))))
      (View.ld Wb (Rect.unit ![80, 0] ![16, 512] (by decide)))
      (View.ld X (Rect.unit ![96, 0] ![16, 128] (by decide)))
      (View.ld Wb (Rect.unit ![96, 0] ![16, 512] (by decide))))
    (k0_pay17 (View.ld X (Rect.unit ![112, 0] ![16, 128] (by decide)))
      (View.ld Wb (Rect.unit ![112, 0] ![16, 512] (by decide))))
    acc

/-- What the last point of a sweep writes out, from the three totals. -/
def outStep (d mx ab : Vec F S128x512 .f32) : Vec F S128x512 .f32 := k0_pay2 d mx ab

end Cert.KernelIdeal.Steps

end
-- ==== Proof.Pieces.lean ====
/-
  What each grid point leaves in the three running totals and in the output tile, read off the kernel body's stores:
  at the first point of a sweep (the totals are zeroed first) each total is its step applied to the zero tile; at every
  later point it is the step applied to what the point before left; and the last point of a sweep writes out
  dot + c * (max - abs) of the three totals it has just updated.
-/
import proofs.«140068_j21912923144500_2_alg».proof.Proof.Steps
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Steps
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

theorem sA_0 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : cond0_0 i) (hc1 : ¬cond0_1 i) (x0 : Vec F S128x128 .f32) (x1 : Vec F S128x512 .f32) :
    sout0_A_0 c i arg2 harg2 arg3 harg3 arg4 harg4 arg5 harg5 arg6 harg6 arg7 harg7 hc0 hc1 x0 x1 = dotStep x0 x1 zeroTile := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S128x512) hz, View.readCov_unit_zero (S := S128x512) _ hz]
  simp only [View.readAt_eq_ld, harg2.read_unread, harg3.read_unread, harg5.read_unread, harg6.read_unread, harg7.read_unread, View.ld_unit_zero (S := S128x512) hz, View.ld_unit_zero (S := S128x128) hz]
  unfold k0_pay3
  simp only [shapeCast_self]
  rfl

theorem sA_1 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : cond0_0 i) (hc1 : ¬cond0_1 i) (x0 : Vec F S128x128 .f32) (x1 : Vec F S128x512 .f32) :
    sout0_A_1 c i arg2 harg2 arg3 harg3 arg4 harg4 arg5 harg5 arg6 harg6 arg7 harg7 hc0 hc1 x0 x1 = absStep x0 x1 zeroTile := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S128x512) hz, View.readCov_unit_zero (S := S128x512) _ hz]
  simp only [View.readAt_eq_ld, harg2.read_unread, harg3.read_unread, harg5.read_unread, harg6.read_unread, harg7.read_unread, View.ld_unit_zero (S := S128x512) hz, View.ld_unit_zero (S := S128x128) hz]
  unfold k0_pay4
  simp only [shapeCast_self]
  rfl

theorem sA_2 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : cond0_0 i) (hc1 : ¬cond0_1 i) (x0 : Vec F S128x128 .f32) (x1 : Vec F S128x512 .f32) :
    sout0_A_2 c i arg2 harg2 arg3 harg3 arg4 harg4 arg5 harg5 arg6 harg6 arg7 harg7 hc0 hc1 x0 x1 = maxStep x0 x1 zeroTile := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S128x512) hz, View.readCov_unit_zero (S := S128x512) _ hz]
  simp only [View.readAt_eq_ld, harg2.read_unread, harg3.read_unread, harg5.read_unread, harg6.read_unread, harg7.read_unread, View.ld_unit_zero (S := S128x512) hz, View.ld_unit_zero (S := S128x128) hz]
  unfold k0_pay5
  simp only [shapeCast_self]
  rfl

theorem sB_0 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : ¬cond0_1 i) (x0 : Vec F S128x128 .f32) (x1 : Vec F S128x512 .f32) (xs0 xs1 xs2 : Vec F S128x512 .f32) :
    sout0_B_0 c i arg2 harg2 arg3 harg3 arg4 harg4 arg5 harg5 arg6 harg6 arg7 harg7 hc0 hc1 x0 x1 xs0 xs1 xs2 = dotStep x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S128x512) hz, View.ld_unit_zero (S := S128x128) hz]
  rfl

theorem sB_1 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : ¬cond0_1 i) (x0 : Vec F S128x128 .f32) (x1 : Vec F S128x512 .f32) (xs0 xs1 xs2 : Vec F S128x512 .f32) :
    sout0_B_1 c i arg2 harg2 arg3 harg3 arg4 harg4 arg5 harg5 arg6 harg6 arg7 harg7 hc0 hc1 x0 x1 xs0 xs1 xs2 = absStep x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S128x512) hz, View.ld_unit_zero (S := S128x128) hz]
  rfl

theorem sB_2 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : ¬cond0_1 i) (x0 : Vec F S128x128 .f32) (x1 : Vec F S128x512 .f32) (xs0 xs1 xs2 : Vec F S128x512 .f32) :
    sout0_B_2 c i arg2 harg2 arg3 harg3 arg4 harg4 arg5 harg5 arg6 harg6 arg7 harg7 hc0 hc1 x0 x1 xs0 xs1 xs2 = maxStep x0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg5.read_unread, harg6.read_unread, harg7.read_unread, View.ld_unit_zero (S := S128x512) hz, View.ld_unit_zero (S := S128x128) hz]
  rfl

theorem sC_0 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i) (x0 : Vec F S128x128 .f32) (x1 : Vec F S128x512 .f32) (xs0 xs1 xs2 : Vec F S128x512 .f32) :
    sout0_C_0 c i arg2 harg2 arg3 harg3 arg4 harg4 arg5 harg5 arg6 harg6 arg7 harg7 hc0 hc1 x0 x1 xs0 xs1 xs2 = dotStep x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S128x512) hz, View.ld_unit_zero (S := S128x128) hz]
  rfl

theorem sC_1 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i) (x0 : Vec F S128x128 .f32) (x1 : Vec F S128x512 .f32) (xs0 xs1 xs2 : Vec F S128x512 .f32) :
    sout0_C_1 c i arg2 harg2 arg3 harg3 arg4 harg4 arg5 harg5 arg6 harg6 arg7 harg7 hc0 hc1 x0 x1 xs0 xs1 xs2 = absStep x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S128x512) hz, View.ld_unit_zero (S := S128x128) hz]
  rfl

theorem sC_2 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i) (x0 : Vec F S128x128 .f32) (x1 : Vec F S128x512 .f32) (xs0 xs1 xs2 : Vec F S128x512 .f32) :
    sout0_C_2 c i arg2 harg2 arg3 harg3 arg4 harg4 arg5 harg5 arg6 harg6 arg7 harg7 hc0 hc1 x0 x1 xs0 xs1 xs2 = maxStep x0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg5.read_unread, harg6.read_unread, harg7.read_unread, View.ld_unit_zero (S := S128x512) hz, View.ld_unit_zero (S := S128x128) hz]
  rfl

theorem oC_2 (c : Dev nD) (i : grid0.Coords) (arg2 : Memref sig .tc .vmem S128x128 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (hc0 : ¬cond0_0 i) (hc1 : cond0_1 i) (x0 : Vec F S128x128 .f32) (x1 : Vec F S128x512 .f32) (xs0 xs1 xs2 : Vec F S128x512 .f32) :
    out0_C_2 c i arg2 harg2 arg3 harg3 arg4 harg4 arg5 harg5 arg6 harg6 arg7 harg7 hc0 hc1 x0 x1 xs0 xs1 xs2 = outStep (dotStep x0 x1 xs0) (maxStep x0 x1 xs2) (absStep x0 x1 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readCov_unit_zero (S := S128x512) _ hz]
  simp only [View.readAt_eq_ld, harg2.read_unread, harg3.read_unread, harg5.read_unread, harg6.read_unread, harg7.read_unread, View.ld_unit_zero (S := S128x512) hz, View.ld_unit_zero (S := S128x128) hz]
  rfl

end Cert.KernelIdeal.Pieces

end
-- ==== Proof.Spec.lean ====
/-
  The function both programs compute, with no program in sight.

  For an activation matrix x of shape [128, 1024] and a weight matrix W of shape [1024, 1024], at row b and output
  column n, with the products t k = x(b,k) * W(n,k) and a k = |x(b,k)| * |W(n,k)| over the 1024 input positions k:

      G(b, n) = sum_k t k  +  c * ( sup_k a k  -  sum_k a k ).

  The kernel works on the two transposed matrices (input position first), tile by tile; its running totals are sums and
  suprema over an initial segment of the input positions, stated here with matrices read at natural-number coordinates
  (zero outside the matrix).  Every a k is nonnegative, so a supremum started at zero instead of at minus infinity
  is the same number once a term has been met.
-/
import Idealize.ShloMosaic.PureOps.Ideal
import Idealize.ShloMosaic.Lib.ValueIdx

noncomputable section

open scoped BigOperators

namespace Cert.Spec

open Idealize.ShloMosaic Idealize.ShloMosaic.ValueIdx

/-- The absolute value of an extended real. -/
def av (x : EReal) : EReal := max x (-x)

theorem av_nonneg (x : EReal) : 0 ≤ av x := by
  unfold av
  rcases le_total 0 x with h | h
  · exact le_max_of_le_left h
  · exact le_max_of_le_right (by simpa using EReal.neg_le_neg_iff.mpr h)

theorem av_mul_nonneg (x y : EReal) : 0 ≤ av x * av y := EReal.mul_nonneg (av_nonneg x) (av_nonneg y)

/-- A matrix read at natural-number coordinates: zero outside it. -/
def atN {a b : ℕ} (A : (⟨2, ![a, b]⟩ : Shape).Idx → EReal) (i j : ℕ) : EReal :=
  if h : i < a ∧ j < b then A (ix2 ⟨i, h.1⟩ ⟨j, h.2⟩) else 0

theorem atN_val {a b : ℕ} (A : (⟨2, ![a, b]⟩ : Shape).Idx → EReal) (i : Fin a) (j : Fin b) :
    atN A i.val j.val = A (ix2 i j) := by
  unfold atN
  rw [dif_pos ⟨i.isLt, j.isLt⟩]

/-- The three reductions over the first `n` input positions, for matrices stored input position first
    (`xt` of shape [1024, 128], `wt` of shape [1024, 1024]), at row `p` and output column `q`. -/
def dotUpTo (xt : (⟨2, ![1024, 128]⟩ : Shape).Idx → EReal) (wt : (⟨2, ![1024, 1024]⟩ : Shape).Idx → EReal) (n p q : ℕ) : EReal :=
  ∑ i ∈ Finset.range n, atN xt i p * atN wt i q
def absUpTo (xt : (⟨2, ![1024, 128]⟩ : Shape).Idx → EReal) (wt : (⟨2, ![1024, 1024]⟩ : Shape).Idx → EReal) (n p q : ℕ) : EReal :=
  ∑ i ∈ Finset.range n, av (atN xt i p) * av (atN wt i q)
def maxUpTo (xt : (⟨2, ![1024, 128]⟩ : Shape).Idx → EReal) (wt : (⟨2, ![1024, 1024]⟩ : Shape).Idx → EReal) (n p q : ℕ) : EReal :=
  max 0 ((Finset.range n).sup fun i => av (atN xt i p) * av (atN wt i q))

/-- The result at row `b`, output column `n`, from `x` [128, 1024] and `W` [1024, 1024] (output column first). -/
def G (c : EReal) (x : (⟨2, ![128, 1024]⟩ : Shape).Idx → EReal) (W : (⟨2, ![1024, 1024]⟩ : Shape).Idx → EReal) :
    (⟨2, ![128, 1024]⟩ : Shape).Idx → EReal := fun j =>
  (∑ k : Fin 1024, x (ix2 (j 0) k) * W (ix2 (j 1) k))
    + c * ((Finset.univ.sup fun k : Fin 1024 => av (x (ix2 (j 0) k)) * av (W (ix2 (j 1) k)))
            - ∑ k : Fin 1024, av (x (ix2 (j 0) k)) * av (W (ix2 (j 1) k)))

/-- The same from the transposed matrices, as the kernel's running totals after all 1024 positions. -/
def H (c : EReal) (xt : (⟨2, ![1024, 128]⟩ : Shape).Idx → EReal) (wt : (⟨2, ![1024, 1024]⟩ : Shape).Idx → EReal) :
    (⟨2, ![128, 1024]⟩ : Shape).Idx → EReal := fun j =>
  dotUpTo xt wt 1024 (j 0).val (j 1).val + c * (maxUpTo xt wt 1024 (j 0).val (j 1).val - absUpTo xt wt 1024 (j 0).val (j 1).val)

/-- A sum over the first 1024 naturals of a matrix read at natural coordinates is the sum over the matrix's positions. -/
theorem sum_range_fin (f : ℕ → EReal) : ∑ i ∈ Finset.range 1024, f i = ∑ k : Fin 1024, f k.val := Finset.sum_range f

/-- A supremum of nonnegative terms started at zero is the supremum over the positions themselves (there is one). -/
theorem max_zero_sup_range (f : ℕ → EReal) (h0 : ∀ i, 0 ≤ f i) :
    max 0 ((Finset.range 1024).sup f) = Finset.univ.sup fun k : Fin 1024 => f k.val := by
  apply le_antisymm
  · refine max_le ((h0 0).trans (Finset.le_sup (f := fun k : Fin 1024 => f k.val) (Finset.mem_univ (0 : Fin 1024)))) ?_
    refine Finset.sup_le fun i hi => ?_
    exact Finset.le_sup (f := fun k : Fin 1024 => f k.val) (Finset.mem_univ (⟨i, Finset.mem_range.mp hi⟩ : Fin 1024))
  · refine le_max_of_le_right (Finset.sup_le fun k _ => ?_)
    exact Finset.le_sup (f := f) (Finset.mem_range.mpr k.isLt)

/-- If `xt` and `wt` are the transposes of `x` and `W`, the kernel's totals are the result `G`. -/
theorem H_eq_G (c : EReal) (x : (⟨2, ![128, 1024]⟩ : Shape).Idx → EReal) (W : (⟨2, ![1024, 1024]⟩ : Shape).Idx → EReal)
    (xt : (⟨2, ![1024, 128]⟩ : Shape).Idx → EReal) (wt : (⟨2, ![1024, 1024]⟩ : Shape).Idx → EReal)
    (hx : ∀ (i : Fin 1024) (p : Fin 128), xt (ix2 i p) = x (ix2 p i))
    (hw : ∀ (i : Fin 1024) (q : Fin 1024), wt (ix2 i q) = W (ix2 q i)) : H c xt wt = G c x W := by
  funext j
  have e1 : ∀ k : Fin 1024, atN xt k.val (j 0).val = x (ix2 (j 0) k) := fun k => (atN_val xt k (j 0)).trans (hx k (j 0))
  have e2 : ∀ k : Fin 1024, atN wt k.val (j 1).val = W (ix2 (j 1) k) := fun k => (atN_val wt k (j 1)).trans (hw k (j 1))
  unfold H G dotUpTo absUpTo maxUpTo
  rw [sum_range_fin, sum_range_fin, max_zero_sup_range _ (fun i => av_mul_nonneg _ _)]
  simp only [e1, e2]

end Cert.Spec

end
-- ==== Proof.LibRowMin.lean ====
/-
  A kernel's row minima, and the lattice reading of a row reduction, at an index given by coordinates.

  `jnp.min(x, axis=1)` of a matrix `[a, b]` is, in a kernel, a lane reduction `[a, b] → [a]` by `minimumf` from an
  accumulator word. On the extended reals `min` is commutative and associative, so the order of the reduction does not
  matter: read at row `r` the result is the fold of `min`, from the value the accumulator's word denotes, over the entries
  `x (r, k)`, `k` running over the row. When that word is the one of +∞ the accumulator's value is the top element and the
  fold over the whole row is the infimum of the row; dually a fold of `max` from the word of −∞, the bottom element, is
  the supremum — the form a masked maximum or minimum (`jnp.where(mask, x, ∓inf)` reduced along the row) is compared in.
  Last, a matrix transposed by the permutation `[1, 0]` reads, at `(d, j)`, the operand at `(j, d)`: the right operand of
  `x @ y.T`.
-/
import Idealize.ShloMosaic.Lib.ValueIdx
import Idealize.ShloMosaic.Lib.Pipeline.Value
import Idealize.ShloMosaic.PureOps.Ideal.Laws

noncomputable section

namespace Cert.LibRowMin

open Idealize.ShloMosaic Idealize.ShloMosaic.ValueIdx

/-! ## The two infinities' words, and folds over a whole row as lattice operations -/

/-- The f32 word of minus infinity denotes the bottom element of the extended reals. -/
theorem ofBits_neg_inf : Ideal.ofBits .f32 0xFF800000#32 = ⊥ := by simp [Ideal.ofBits, Ideal.ieee]
/-- The f32 word of plus infinity denotes the top element of the extended reals. -/
theorem ofBits_pos_inf : Ideal.ofBits .f32 0x7F800000#32 = ⊤ := by simp [Ideal.ofBits, Ideal.ieee]

/-- A fold of max from bottom over all of `Fin n` is the supremum. -/
theorem fold_max_bot {n : ℕ} (f : Fin n → EReal) : (Finset.univ : Finset (Fin n)).fold max ⊥ f = Finset.univ.sup f := rfl
/-- A fold of min from top over all of `Fin n` is the infimum. -/
theorem fold_min_top {n : ℕ} (f : Fin n → EReal) : (Finset.univ : Finset (Fin n)).fold min ⊤ f = Finset.univ.inf f := rfl

/-! ## A minimum along one axis -/

/-- A lane reduction by minimumf over one axis, at the ideal values: min commutes and associates on the extended reals,
    so the result at an index is the fold of min, from the accumulator's value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A lane reduction by `minimumf` of an `[a, b]` matrix along its rows, at the ideal values and read at row `r`: the
    fold of `min` from the accumulator's value over the row. -/
theorem multiReduction_min_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  refine congrArg (Finset.fold _ _ · _) (funext fun k => congrArg src (funext fun ax => Fin.ext ?_))
  match ax with
  | ⟨0, _⟩ => rfl
  | ⟨1, _⟩ => rfl

/-! ## A transposed matrix -/

/-- An `[a, b]` matrix transposed to `[b, a]` reads, at `(d, j)`, the operand at `(j, d)`. -/
theorem transpose_ab_ba_apply {a b : ℕ} {α : Type} (x : (⟨2, ![a, b]⟩ : Shape).Idx → α)
    (h : (⟨2, ![a, b]⟩ : Shape).Transposes [1, 0] ⟨2, ![b, a]⟩) (d : Fin b) (j : Fin a) :
    transpose ⟨2, ![b, a]⟩ [1, 0] x h (ix2 d j) = x (ix2 j d) :=
  transpose_apply [1, 0] x h (ix2 d j) (ix2 j d) fun ax => by
    match ax with
    | ⟨0, _⟩ => rfl
    | ⟨1, _⟩ => rfl

end Cert.LibRowMin

end
-- ==== Proof.Blocks.lean ====
/-
  The two matrices as the kernel's region finds them — x and W transposed, input position first — and the tiles
  the grid hands the body: at grid point t (output half t / 8, input tile t % 8) the first tile holds input positions
  128·(t % 8) + r of the transposed x, all 128 rows; the second holds the same input positions of the transposed W,
  output columns 512·(t / 8) + q.
-/
import proofs.«140068_j21912923144500_2_alg».proof.Proof.Gen.KernelIdeal.Frame
import proofs.«140068_j21912923144500_2_alg».proof.Proof.Spec
import proofs.«140068_j21912923144500_2_alg».proof.Proof.LibRowMin
import Idealize.ShloMosaic.Lib.Pipeline.Value
import Idealize.ShloMosaic.Lib.StableHlo.Run

noncomputable section

namespace Cert.KernelIdeal.Blocks

open Cert.KernelIdeal Cert.KernelIdeal.Gen Cert.Spec
open Idealize.ShloMosaic Idealize.ShloMosaic.TcCoe Idealize.SL.Sem Idealize.ShloMosaic.ValueIdx

variable (m : (ℓ : Loc nD τ sig) → Buf (Elt Ideal) ℓ)

/-- The transposed x, [1024, 128], and the transposed W, [1024, 1024], at region entry. -/
abbrev XT (c : Dev nD) : (⟨2, ![1024, 128]⟩ : Shape).Idx → EReal := V m c main_v0
abbrev WT (c : Dev nD) : (⟨2, ![1024, 1024]⟩ : Shape).Idx → EReal := V m c main_v1

theorem XT_apply (c : Dev nD) (i : Fin 1024) (p : Fin 128) :
    XT m c (ix2 i p) = m ((c : Thread nD τ).loc main_arg0) (ix2 p i) := by
  have e : (V m c main_v0 : S1024x128.Idx → EReal)
      = transpose S1024x128 [1, 0] (m ((c : Thread nD τ).loc main_arg0)) transposes_S128x1024_S1024x128_1_0 := by
    dsimp only [Gen.V, Gen.hostOps0]; after_results
  show (V m c main_v0 : S1024x128.Idx → EReal) (ix2 i p) = _
  rw [e]
  exact Cert.LibRowMin.transpose_ab_ba_apply _ _ i p

theorem WT_apply (c : Dev nD) (i : Fin 1024) (q : Fin 1024) :
    WT m c (ix2 i q) = m ((c : Thread nD τ).loc main_arg1) (ix2 q i) := by
  have e : (V m c main_v1 : S1024x1024.Idx → EReal)
      = transpose S1024x1024 [1, 0] (m ((c : Thread nD τ).loc main_arg1)) transposes_S1024x1024_S1024x1024_1_0 := by
    dsimp only [Gen.V, Gen.hostOps0]; after_results
  show (V m c main_v1 : S1024x1024.Idx → EReal) (ix2 i q) = _
  rw [e]
  exact Cert.LibRowMin.transpose_ab_ba_apply _ _ i q

/-- Which tile each window is on at point t: decided over the sixteen points. -/
theorem idx0 : ∀ t : Fin cfg0.N, win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0)
theorem idx1 : ∀ t : Fin cfg0.N, win0_1.index t (0 : Fin 2) = t.val % 8 ∧ win0_1.index t (1 : Fin 2) = t.val / 8 :=
  (by decide +kernel : ∀ t : Fin grid0.N, win0_1.index t (0 : Fin 2) = t.val % 8 ∧ win0_1.index t (1 : Fin 2) = t.val / 8)
theorem idx2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- The tile of the transposed x at point t. -/
theorem iblk0_at (c : Dev nD) (t : Fin cfg0.N) (r p : Fin 128) :
    (iblk m c 0 t : Vec Ideal S128x128 .f32) (ix2 r p) = atN (XT m c) (128 * (t.val % 8) + r.val) p.val := by
  have hk : t.val % 8 < 8 := Nat.mod_lt _ (by decide)
  have hb : 128 * (t.val % 8) + r.val < 1024 := by have := r.isLt; omega
  unfold atN
  rw [dif_pos ⟨hb, p.isLt⟩]
  unfold iblk
  rw [View.read_apply]
  show V m c main_v0 _ = V m c main_v0 _
  congr 1
  funext a
  apply Fin.ext
  match a with
  | ⟨0, _⟩ => show win0_0.index t 0 * 128 + 1 * r.val = 128 * (t.val % 8) + r.val; rw [(idx0 t).1]; omega
  | ⟨1, _⟩ => show win0_0.index t 1 * 128 + 1 * p.val = p.val; rw [(idx0 t).2]; omega

/-- The tile of the transposed W at point t. -/
theorem iblk1_at (c : Dev nD) (t : Fin cfg0.N) (r : Fin 128) (q : Fin 512) :
    (iblk m c 1 t : Vec Ideal S128x512 .f32) (ix2 r q)
      = atN (WT m c) (128 * (t.val % 8) + r.val) (512 * (t.val / 8) + q.val) := by
  have hN : t.val < 16 := lt_of_lt_of_eq t.isLt (show cfg0.N = 16 from N_0)
  have hb : 128 * (t.val % 8) + r.val < 1024 := by have := r.isLt; omega
  have hq : 512 * (t.val / 8) + q.val < 1024 := by have := q.isLt; omega
  unfold atN
  rw [dif_pos ⟨hb, hq⟩]
  unfold iblk
  rw [View.read_apply]
  show V m c main_v1 _ = V m c main_v1 _
  congr 1
  funext a
  apply Fin.ext
  match a with
  | ⟨0, _⟩ => show win0_1.index t 0 * 128 + 1 * r.val = 128 * (t.val % 8) + r.val; rw [(idx1 t).1]; omega
  | ⟨1, _⟩ => show win0_1.index t 1 * 512 + 1 * q.val = 512 * (t.val / 8) + q.val; rw [(idx1 t).2]; omega

end Cert.KernelIdeal.Blocks

end
-- ==== Proof.Totals.lean ====
/-
  How the three running totals grow by one tile of 128 input positions: the sum over the first 128·(k+1) positions
  is the sum over the first 128·k plus the sum over the tile, and likewise the supremum (started at zero).
  Before any position the sums are zero and the supremum, started at zero, is zero.
-/
import proofs.«140068_j21912923144500_2_alg».proof.Proof.Spec

noncomputable section

open scoped BigOperators

namespace Cert.Spec

open Idealize.ShloMosaic Idealize.ShloMosaic.ValueIdx

variable (xt : (⟨2, ![1024, 128]⟩ : Shape).Idx → EReal) (wt : (⟨2, ![1024, 1024]⟩ : Shape).Idx → EReal)

theorem dotUpTo_zero (p q : ℕ) : dotUpTo xt wt 0 p q = 0 := Finset.sum_range_zero _
theorem absUpTo_zero (p q : ℕ) : absUpTo xt wt 0 p q = 0 := Finset.sum_range_zero _
theorem maxUpTo_zero (p q : ℕ) : maxUpTo xt wt 0 p q = 0 := by
  unfold maxUpTo
  rw [Finset.range_zero, Finset.sup_empty]
  exact max_eq_left bot_le

/-- One more tile of the signed product. -/
theorem dotUpTo_step (k p q : ℕ) :
    dotUpTo xt wt (128 * k) p q + ∑ r : Fin 128, atN xt (128 * k + r.val) p * atN wt (128 * k + r.val) q
      = dotUpTo xt wt (128 * (k + 1)) p q := by
  unfold dotUpTo
  rw [Nat.mul_succ, Finset.sum_range_add]
  exact congrArg (_ + ·) (Finset.sum_range fun r => atN xt (128 * k + r) p * atN wt (128 * k + r) q).symm

/-- One more tile of the absolute product. -/
theorem absUpTo_step (k p q : ℕ) :
    absUpTo xt wt (128 * k) p q + ∑ r : Fin 128, av (atN xt (128 * k + r.val) p) * av (atN wt (128 * k + r.val) q)
      = absUpTo xt wt (128 * (k + 1)) p q := by
  unfold absUpTo
  rw [Nat.mul_succ, Finset.sum_range_add]
  exact congrArg (_ + ·) (Finset.sum_range fun r => av (atN xt (128 * k + r) p) * av (atN wt (128 * k + r) q)).symm

/-- One more tile of the running maximum: every position below 128·(k+1) is below 128·k or in the tile. -/
theorem maxUpTo_step (k p q : ℕ) :
    max (maxUpTo xt wt (128 * k) p q)
        (max 0 (Finset.univ.sup fun r : Fin 128 => av (atN xt (128 * k + r.val) p) * av (atN wt (128 * k + r.val) q)))
      = maxUpTo xt wt (128 * (k + 1)) p q := by
  unfold maxUpTo
  apply le_antisymm
  · refine max_le (max_le (le_max_left _ _) (le_max_of_le_right ?_)) (max_le (le_max_left _ _) (le_max_of_le_right ?_))
    · exact Finset.sup_mono (Finset.range_mono (by omega))
    · refine Finset.sup_le fun r _ => ?_
      exact Finset.le_sup (f := fun i => av (atN xt i p) * av (atN wt i q)) (Finset.mem_range.mpr (by have := r.isLt; omega))
  · refine max_le (le_max_of_le_left (le_max_left _ _)) (Finset.sup_le fun i hi => ?_)
    have hi' : i < 128 * (k + 1) := Finset.mem_range.mp hi
    by_cases h : i < 128 * k
    · exact le_max_of_le_left (le_max_of_le_right
        (Finset.le_sup (f := fun i => av (atN xt i p) * av (atN wt i q)) (Finset.mem_range.mpr h)))
    · refine le_max_of_le_right (le_max_of_le_right ?_)
      have e : 128 * k + (⟨i - 128 * k, by omega⟩ : Fin 128).val = i := by show 128 * k + (i - 128 * k) = i; omega
      refine le_of_eq_of_le ?_ (Finset.le_sup
        (f := fun r : Fin 128 => av (atN xt (128 * k + r.val) p) * av (atN wt (128 * k + r.val) q))
        (Finset.mem_univ (⟨i - 128 * k, by omega⟩ : Fin 128)))
      show av (atN xt i p) * av (atN wt i q) = av (atN xt (128 * k + (i - 128 * k)) p) * av (atN wt (128 * k + (i - 128 * k)) q)
      rw [show 128 * k + (i - 128 * k) = i by omega]

end Cert.Spec

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.PayDot.lean ====
/-
  The two matrix-product steps of a grid point, the step that writes a sweep's result, and the zero tile, read at an
  index, over the extended reals.

  A grid point holds a tile `X` of x stored input position first (`X (r, p)` is input position `r` of row `p`) and a
  tile `Wb` of W stored the same way (`Wb (r, q)` is input position `r` of output column `q`). The signed step adds
  to its running total the product of the transposed `X` with `Wb`: at row `p` and column `q` the sum over the tile's
  128 positions `r` of `X (r, p) * Wb (r, q)`. The absolute step does the same with both tiles replaced by their
  absolute values. Narrowing a number to a shorter format changes nothing over the extended reals, and a cast of a tile
  to its own shape is the tile. The result written at the end of a sweep is `dot + c * (max - abs)`, entry by entry.
-/
import proofs.«140068_j21912923144500_2_alg».proof.Proof.Steps
import proofs.«140068_j21912923144500_2_alg».proof.Proof.Spec
import proofs.«140068_j21912923144500_2_alg».proof.Proof.LibMatmulNN
import proofs.«140068_j21912923144500_2_alg».proof.Proof.LibRowMin

noncomputable section

open scoped BigOperators

namespace Cert.KernelIdeal.PayDot

open Cert.KernelIdeal Cert.KernelIdeal.Gen Cert.KernelIdeal.Steps Idealize.ShloMosaic Idealize.ShloMosaic.ValueIdx

/-- The tile every total starts from is zero everywhere: the all-zero word denotes the number zero. -/
theorem zeroTile_apply (j : S128x512.Idx) : zeroTile (F := Ideal) j = 0 := Ideal.ofBits_zero_f32

/-- The product of a transposed `[128, 128]` tile `A` with a `[128, 512]` tile `B`, from zero: at `(p, q)` the sum over
    the shared first coordinate `r` of `A (r, p) * B (r, q)`. -/
theorem transpose_matmul_apply {φ₁ φ₂ : FTy} (A : FVec Ideal S128x128 φ₁) (B : FVec Ideal S128x512 φ₂)
    (p : Fin 128) (q : Fin 512) :
    matmul dot_S128x128_S128x512_S128x512_1_0_0_1_n_n none
        (transpose S128x128 [1, 0] A transposes_S128x128_p1_0_S128x128) B (constant S128x512 .f32 0x00000000#32) (ix2 p q)
      = ∑ r : Fin 128, A (ix2 r p) * B (ix2 r q) := by
  refine (Cert.LibMatmulNN.matmul_nn_apply (M := 128) (N := 512) (K := 128)
    dot_S128x128_S128x512_S128x512_1_0_0_1_n_n rfl rfl rfl rfl rfl rfl none
    (transpose S128x128 [1, 0] A transposes_S128x128_p1_0_S128x128) B p q).trans ?_
  refine Finset.sum_congr rfl fun r _ => ?_
  exact congrArg (· * B (ix2 r q)) (Cert.LibRowMin.transpose_ab_ba_apply A transposes_S128x128_p1_0_S128x128 p r)

/-- The signed step: the total plus the product of the transposed `X` with `Wb`. -/
theorem dotStep_apply (X : Vec Ideal S128x128 .f32) (Wb acc : Vec Ideal S128x512 .f32) (p : Fin 128) (q : Fin 512) :
    dotStep (F := Ideal) X Wb acc (ix2 p q) = acc (ix2 p q) + ∑ r : Fin 128, X (ix2 r p) * Wb (ix2 r q) := by
  unfold dotStep k0_pay8 k0_pay6 k0_pay7
  simp only [shapeCast_self]
  refine congrArg (acc (ix2 p q) + ·) ?_
  exact transpose_matmul_apply (truncf .bf16 X bitsLt_bf16_f32) (truncf .bf16 Wb bitsLt_bf16_f32) p q

/-- The absolute step: the total plus the product of the transposed `|X|` with `|Wb|`. -/
theorem absStep_apply (X : Vec Ideal S128x128 .f32) (Wb acc : Vec Ideal S128x512 .f32) (p : Fin 128) (q : Fin 512) :
    absStep (F := Ideal) X Wb acc (ix2 p q)
      = acc (ix2 p q) + ∑ r : Fin 128, Cert.Spec.av (X (ix2 r p)) * Cert.Spec.av (Wb (ix2 r q)) := by
  unfold absStep k0_pay9 k0_pay6 k0_pay7
  simp only [shapeCast_self]
  refine congrArg (acc (ix2 p q) + ·) ?_
  exact transpose_matmul_apply (truncf .bf16 (absf X) bitsLt_bf16_f32) (truncf .bf16 (absf Wb) bitsLt_bf16_f32) p q

/-- What a sweep writes out: the signed total plus the constant times the maximum less the absolute total. -/
theorem outStep_apply (d mx ab : Vec Ideal S128x512 .f32) (j : S128x512.Idx) :
    outStep (F := Ideal) d mx ab j = d j + Ideal.ofBits .f32 0x3C23D70A#32 * (mx j - ab j) := rfl

end Cert.KernelIdeal.PayDot

end
-- ==== Proof.LibMid3.lean ====
/-
  General lemmas: the layouts that bring a vector `[b]` and a matrix `[a, c]` to a rank-3 array `[a, b, c]` whose MIDDLE
  axis is the vector's, each read at an index given by coordinates.

  An expression `x[:, None, :] * w[None, :, None]` of `x : [a, c]` and `w : [b]` meets at `[a, b, c]`: the matrix goes
  `[a, c] → [a, 1, c] → [a, b, c]` (a kept middle axis, then a broadcast along it), the vector
  `[b] → [1, b, 1] → [a, b, c]`. Read at `(p, q, k)` these are the matrix at `(p, k)` and the vector at `q`. With them the
  two casts that undo a kept axis: `[a, 1, c] → [a, c]` and `[b, 1] → [b]`.
-/
import Idealize.ShloMosaic.Lib.ValueIdx
import Idealize.ShloMosaic.Lib.ValueLayout
import Idealize.ShloMosaic.Lib.Pipeline.Value

noncomputable section

namespace Cert.LibMid3

open Idealize.ShloMosaic Idealize.ShloMosaic.ValueIdx

variable {α : Type}

/-- A `[b]` vector cast to `[1, b, 1]` reads, at `(u, q, u')`, the vector at `q`. -/
theorem shapeCast_b_1b1_apply {b : ℕ} (x : (⟨1, ![b]⟩ : Shape).Idx → α) (h : (⟨1, ![b]⟩ : Shape).ShapeCasts ⟨3, ![1, b, 1]⟩)
    (u : Fin 1) (q : Fin b) (u' : Fin 1) : shapeCast ⟨3, ![1, b, 1]⟩ x h (ix3 u q u') = x (ix1 q) :=
  shapeCast_apply x h _ _ (by
    have hu : u.val = 0 := by omega
    have hu' : u'.val = 0 := by omega
    rw [Shape.rowMajor_val_three, Shape.rowMajor_val_one]
    show q.val = (u.val * b + q.val) * 1 + u'.val
    rw [hu, hu', Nat.zero_mul, Nat.zero_add, Nat.mul_one, Nat.add_zero])

/-- A `[1, b, 1]` array broadcast to `[a, b, c]` reads, at `(p, q, k)`, its one line at `q`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (k : Fin c) :
    broadcastTo ⟨3, ![a, b, c]⟩ v h (ix3 p q k) = v (ix3 (0 : Fin 1) q (0 : Fin 1)) := by
  refine broadcastTo_apply v h (ix3 p q k) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- An `[a, c]` matrix cast to `[a, 1, c]` (a kept middle axis) reads, at `(p, u, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, 1, c]` array cast to `[a, c]` (the unit middle axis dropped) reads, at `(p, k)`, the array at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- An `[a, 1, c]` array broadcast to `[a, b, c]` reads, at `(p, q, k)`, the array at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[b, 1]` column cast to a `[b]` vector reads, at `q`, the column at `(q, 0)`. -/
theorem shapeCast_b1_b_apply {b : ℕ} (x : (⟨2, ![b, 1]⟩ : Shape).Idx → α) (h : (⟨2, ![b, 1]⟩ : Shape).ShapeCasts ⟨1, ![b]⟩)
    (q : Fin b) : shapeCast ⟨1, ![b]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- The vector's whole road: `[b] → [1, b, 1] → [a, b, c]` reads, at `(p, q, k)`, the vector at `q`. -/
theorem broadcastTo_shapeCast_b_abc_apply {a b c : ℕ} (x : (⟨1, ![b]⟩ : Shape).Idx → α)
    (h₁ : (⟨1, ![b]⟩ : Shape).ShapeCasts ⟨3, ![1, b, 1]⟩) (h₂ : (⟨3, ![1, b, 1]⟩ : Shape).Broadcasts ⟨3, ![a, b, c]⟩)
    (p : Fin a) (q : Fin b) (k : Fin c) :
    broadcastTo ⟨3, ![a, b, c]⟩ (shapeCast ⟨3, ![1, b, 1]⟩ x h₁) h₂ (ix3 p q k) = x (ix1 q) :=
  (broadcastTo_1b1_abc_apply _ h₂ p q k).trans (shapeCast_b_1b1_apply x h₁ 0 q 0)

/-- The matrix's whole road: `[a, c] → [a, 1, c] → [a, b, c]` reads, at `(p, q, k)`, the matrix at `(p, k)`. -/
theorem broadcastTo_shapeCast_ac_abc_apply {a b c : ℕ} (x : (⟨2, ![a, c]⟩ : Shape).Idx → α)
    (h₁ : (⟨2, ![a, c]⟩ : Shape).ShapeCasts ⟨3, ![a, 1, c]⟩) (h₂ : (⟨3, ![a, 1, c]⟩ : Shape).Broadcasts ⟨3, ![a, b, c]⟩)
    (p : Fin a) (q : Fin b) (k : Fin c) :
    broadcastTo ⟨3, ![a, b, c]⟩ (shapeCast ⟨3, ![a, 1, c]⟩ x h₁) h₂ (ix3 p q k) = x (ix2 p k) :=
  (broadcastTo_a1c_abc_apply _ h₂ p q k).trans (shapeCast_ac_a1c_apply x h₁ p 0 k)

end Cert.LibMid3

end
-- ==== Proof.LibKeepdims3.lean ====
/-
  General lemmas: a rank-3 array `[a, b, c]` reduced along its last axis with the axis kept, and the layouts that
  bring rank-2 and rank-1 operands to it, each read at an index given by coordinates.

  `jnp.mean(x, axis=-1, keepdims=True)` of `x : [a, b, c]` is a reduction `[a, b, c] → [a, b]`, the kept axis put back
  `[a, b] → [a, b, 1]`, and, where the result meets `x` again, a broadcast `[a, b, 1] → [a, b, c]`; a matrix `[b, c]`
  meets `x` through `[b, c] → [1, b, c] → [a, b, c]`, a vector `[c]` through `[c] → [1, 1, c] → [a, b, c]` (in a kernel from a
  `[1, c]` block). Read at `(p, q, k)` these are the sum over `(p, q, ·)`, the matrix at `(q, k)`, the vector at `k`.
  First the kernel's spellings (`shapeCast`, `broadcastTo`, the lane `multiReduction`), then a host program's
  (`broadcastInDim` with its `dims` a variable, of which only the images of the operand's axes are asked; `Host.reduceAdd`).
-/
import Idealize.ShloMosaic.Lib.ValueLayout
import Idealize.ShloMosaic.PureOps.Ideal.Laws

noncomputable section

open scoped BigOperators

namespace Cert.Lib.Keepdims3

open Idealize.ShloMosaic Idealize.ShloMosaic.ValueIdx

section Layout
variable {α : Type}

/-! ## A kernel's layouts -/

/-- A `[1, b, c]` array broadcast to `[a, b, c]` reads, at `(p, q, k)`, its one slab at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b]` array cast to `[a, b, 1]` (a kept last axis) reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, k)`, its one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A host program's layouts -/

/-- A matrix `[b, c]` broadcast to `[1, b, c]` (its axes sent to the last two) reads, at `(u, q, k)`, the matrix at `(q, k)`. -/
theorem broadcastInDim_bc_1bc_apply {b c : ℕ} (dims : Fin 2 → Fin 3)
    (h : (⟨2, ![b, c]⟩ : Shape).BroadcastsInDim ⟨3, ![1, b, c]⟩ dims) (hd0 : dims 0 = 1) (hd1 : dims 1 = 2)
    (v : (⟨2, ![b, c]⟩ : Shape).Idx → α) (u : Fin 1) (q : Fin b) (k : Fin c) :
    broadcastInDim ⟨3, ![1, b, c]⟩ dims h v (ix3 u q k) = v (ix2 q k) := by
  refine broadcastInDim_apply dims h v (ix3 u q k) (ix2 q k) fun ax => ?_
  match ax with
  | ⟨0, _⟩ =>
    show q.val = if b = 1 then 0 else (ix3 u q k (dims 0)).val
    rw [hd0]
    show q.val = if b = 1 then 0 else q.val
    split
    · have := q.isLt; omega
    · rfl
  | ⟨1, _⟩ =>
    show k.val = if c = 1 then 0 else (ix3 u q k (dims 1)).val
    rw [hd1]
    show k.val = if c = 1 then 0 else k.val
    split
    · have := k.isLt; omega
    · rfl

/-- A `[1, b, c]` array broadcast to `[a, b, c]`, axis to axis, reads, at `(p, q, k)`, its one slab at `(q, k)`. -/
theorem broadcastInDim_1bc_abc_apply {a b c : ℕ} (dims : Fin 3 → Fin 3)
    (h : (⟨3, ![1, b, c]⟩ : Shape).BroadcastsInDim ⟨3, ![a, b, c]⟩ dims) (hd1 : dims 1 = 1) (hd2 : dims 2 = 2)
    (v : (⟨3, ![1, b, c]⟩ : Shape).Idx → α) (p : Fin a) (q : Fin b) (k : Fin c) :
    broadcastInDim ⟨3, ![a, b, c]⟩ dims h v (ix3 p q k) = v (ix3 (0 : Fin 1) q k) := by
  refine broadcastInDim_apply dims h v (ix3 p q k) (ix3 (0 : Fin 1) q k) fun ax => ?_
  match ax with
  | ⟨0, _⟩ => rfl
  | ⟨1, _⟩ =>
    show q.val = if b = 1 then 0 else (ix3 p q k (dims 1)).val
    rw [hd1]
    show q.val = if b = 1 then 0 else q.val
    split
    · have := q.isLt; omega
    · rfl
  | ⟨2, _⟩ =>
    show k.val = if c = 1 then 0 else (ix3 p q k (dims 2)).val
    rw [hd2]
    show k.val = if c = 1 then 0 else k.val
    split
    · have := k.isLt; omega
    · rfl

/-- An `[a, b]` array broadcast to `[a, b, 1]` (a kept last axis) reads, at `(p, q, u)`, the operand at `(p, q)`. -/
theorem broadcastInDim_ab_ab1_apply {a b : ℕ} (dims : Fin 2 → Fin 3)
    (h : (⟨2, ![a, b]⟩ : Shape).BroadcastsInDim ⟨3, ![a, b, 1]⟩ dims) (hd0 : dims 0 = 0) (hd1 : dims 1 = 1)
    (v : (⟨2, ![a, b]⟩ : Shape).Idx → α) (p : Fin a) (q : Fin b) (u : Fin 1) :
    broadcastInDim ⟨3, ![a, b, 1]⟩ dims h v (ix3 p q u) = v (ix2 p q) := by
  refine broadcastInDim_apply dims h v (ix3 p q u) (ix2 p q) fun ax => ?_
  match ax with
  | ⟨0, _⟩ =>
    show p.val = if a = 1 then 0 else (ix3 p q u (dims 0)).val
    rw [hd0]
    show p.val = if a = 1 then 0 else p.val
    split
    · have := p.isLt; omega
    · rfl
  | ⟨1, _⟩ =>
    show q.val = if b = 1 then 0 else (ix3 p q u (dims 1)).val
    rw [hd1]
    show q.val = if b = 1 then 0 else q.val
    split
    · have := q.isLt; omega
    · rfl

/-- An `[a, b, 1]` array broadcast to `[a, b, c]`, axis to axis, reads, at `(p, q, k)`, the operand at `(p, q, 0)`. -/
theorem broadcastInDim_ab1_abc_apply {a b c : ℕ} (dims : Fin 3 → Fin 3)
    (h : (⟨3, ![a, b, 1]⟩ : Shape).BroadcastsInDim ⟨3, ![a, b, c]⟩ dims) (hd0 : dims 0 = 0) (hd1 : dims 1 = 1)
    (v : (⟨3, ![a, b, 1]⟩ : Shape).Idx → α) (p : Fin a) (q : Fin b) (k : Fin c) :
    broadcastInDim ⟨3, ![a, b, c]⟩ dims h v (ix3 p q k) = v (ix3 p q (0 : Fin 1)) := by
  refine broadcastInDim_apply dims h v (ix3 p q k) (ix3 p q (0 : Fin 1)) fun ax => ?_
  match ax with
  | ⟨0, _⟩ =>
    show p.val = if a = 1 then 0 else (ix3 p q k (dims 0)).val
    rw [hd0]
    show p.val = if a = 1 then 0 else p.val
    split
    · have := p.isLt; omega
    · rfl
  | ⟨1, _⟩ =>
    show q.val = if b = 1 then 0 else (ix3 p q k (dims 1)).val
    rw [hd1]
    show q.val = if b = 1 then 0 else q.val
    split
    · have := q.isLt; omega
    · rfl
  | ⟨2, _⟩ => rfl

/-- A vector `[c]` broadcast to `[1, 1, c]` (its axis sent to the last) reads, at `(u, u', k)`, the vector at `k`. -/
theorem broadcastInDim_c_11c_apply {c : ℕ} (dims : Fin 1 → Fin 3)
    (h : (⟨1, ![c]⟩ : Shape).BroadcastsInDim ⟨3, ![1, 1, c]⟩ dims) (hd0 : dims 0 = 2)
    (v : (⟨1, ![c]⟩ : Shape).Idx → α) (u u' : Fin 1) (k : Fin c) :
    broadcastInDim ⟨3, ![1, 1, c]⟩ dims h v (ix3 u u' k) = v (ix1 k) := by
  refine broadcastInDim_apply dims h v (ix3 u u' k) (ix1 k) fun ax => ?_
  match ax with
  | ⟨0, _⟩ =>
    show k.val = if c = 1 then 0 else (ix3 u u' k (dims 0)).val
    rw [hd0]
    show k.val = if c = 1 then 0 else k.val
    split
    · have := k.isLt; omega
    · rfl

/-- A `[1, 1, c]` array broadcast to `[a, b, c]`, axis to axis, reads, at `(p, q, k)`, its one row at `k`. -/
theorem broadcastInDim_11c_abc_apply {a b c : ℕ} (dims : Fin 3 → Fin 3)
    (h : (⟨3, ![1, 1, c]⟩ : Shape).BroadcastsInDim ⟨3, ![a, b, c]⟩ dims) (hd2 : dims 2 = 2)
    (v : (⟨3, ![1, 1, c]⟩ : Shape).Idx → α) (p : Fin a) (q : Fin b) (k : Fin c) :
    broadcastInDim ⟨3, ![a, b, c]⟩ dims h v (ix3 p q k) = v (ix3 (0 : Fin 1) (0 : Fin 1) k) := by
  refine broadcastInDim_apply dims h v (ix3 p q k) (ix3 (0 : Fin 1) (0 : Fin 1) k) fun ax => ?_
  match ax with
  | ⟨0, _⟩ => rfl
  | ⟨1, _⟩ => rfl
  | ⟨2, _⟩ =>
    show k.val = if c = 1 then 0 else (ix3 p q k (dims 2)).val
    rw [hd2]
    show k.val = if c = 1 then 0 else k.val
    split
    · have := k.isLt; omega
    · rfl

end Layout

/-! ## The two sums along the last axis, at the ideal values -/

/-- A kernel's lane reduction by addition of an `[a, b, c]` array along its last axis, read at `(p, q)`: the sum over
    `(p, q, ·)`. The accumulator's word is the neutral one, so it contributes nothing. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun ax => Fin.ext ?_)
  match ax with
  | ⟨0, _⟩ => rfl
  | ⟨1, _⟩ => rfl
  | ⟨2, _⟩ => rfl

/-- The host's sum of an `[a, b, c]` array along its last axis, read at `(p, q)`: the initial value plus the sum over
    `(p, q, ·)`. -/
theorem hostReduceAdd_last_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Cert.Lib.Keepdims3

end
-- ==== Proof.LibMax3.lean ====
/-
  Maxima of a rank-3 array along one axis, read at an index given by coordinates, over the extended reals.

  * `multiReduction_max_lead_apply`: a kernel's maximum over the LEADING axis of an `[a, b, c]` value (`jnp.max(x, axis=0)`),
    from an accumulator word, is at `(p, q)` the fold of `max`, from the value the word denotes, over the entries `(k, p, q)`.
  * `hostReduce_max_mid3_apply`: a host program's `reduce` with `maximum` over the MIDDLE axis of an `[a, b, c]` array
    (`jnp.max(x, axis=1)`) is at `(p, r)` the fold of `max`, from the initial value, over the entries `(p, k, r)`.
  Since `max` is commutative and associative the order of the fold does not matter; from the bottom element the fold over
  a whole axis is the supremum.
  * The 16-bit words of minus infinity and of zero denote the bottom element and zero.
-/
import Idealize.ShloMosaic.Lib.ValueLayout
import Idealize.ShloMosaic.PureOps.Ideal.Laws

noncomputable section

namespace Cert.LibMax3

open Idealize.ShloMosaic Idealize.ShloMosaic.ValueIdx

/-- The 16-bit word of minus infinity denotes the bottom element of the extended reals. -/
theorem ofBits_bf16_neg_inf : Ideal.ofBits .bf16 0xFF80#16 = ⊥ := by simp [Ideal.ofBits, Ideal.ieee]
/-- The 16-bit zero word denotes zero. -/
theorem ofBits_bf16_zero : Ideal.ofBits .bf16 0x0000#16 = 0 := by simp [Ideal.ofBits, Ideal.ieee]

/-- The maximum over the leading axis of an [a, b, c] value, at (p, q): the fold of max, from the value of the
    accumulator's word, over the entries (k, p, q). -/
theorem multiReduction_max_lead_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.maximumf.neutral φ hφ)
    (p : Fin b) (q : Fin c) :
    multiReduction .maximumf [0] ⟨2, ![b, c]⟩ src acc h hφ hacc (ix2 p q)
      = (Finset.univ : Finset (Fin a)).fold max (Ideal.ofBits φ acc) (fun k => src (ix3 k p q)) := by
  refine (Ideal.multiReduction_maximumf_single src acc h hφ hacc (ix2 p q)).trans ?_
  refine congrArg (Finset.fold _ _ · _) (funext fun k => congrArg src (funext fun ax => Fin.ext ?_))
  match ax with
  | ⟨0, _⟩ => rfl
  | ⟨1, _⟩ => rfl
  | ⟨2, _⟩ => rfl

/-- The host's maximum of an `[a, b, c]` array along its middle axis, read at `(p, r)`: the fold of `max`, from the
    initial value, over the entries `x (p, k, r)`, `k` running over the middle axis, in any order. -/
theorem hostReduce_max_mid3_apply {a b c : ℕ} {φ : FTy} {u : Shape} (x : FVec Ideal ⟨3, ![a, b, c]⟩ φ)
    (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (r : Fin c) :
    Host.reduce (FloatOps.maximumf (F := Ideal) (φ := φ)) x init h' hu (ix2 p r)
      = (Finset.univ : Finset (Fin b)).fold max (init (Shape.Idx.first hu)) (fun k => x (ix3 p k r)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

end Cert.LibMax3

end
-- ==== Proof.PayMax.lean ====
/-
  The running-maximum step of one grid point, read at a row p and an output column q.

  The point's 128 input positions are taken in eight groups of sixteen. A group's rows of the two tiles are loaded, their
  absolute values taken (the change of format to 16 bits is the identity on the extended reals), x's laid out as
  [16, 128, 1] and W's as [16, 1, 512], both broadcast to [16, 128, 512] and multiplied: the entry (s, p, q) of the
  product is |X(o+s, p)| * |W(o+s, q)|, o the group's first row. The maximum over the leading axis, started from minus
  infinity (the bottom element), is the supremum over the group's sixteen positions. The eight suprema are folded by max
  into a total started at zero, and the result by max into the total before the point. A maximum of maxima over the eight
  groups is the maximum over all 128 positions: every position lies in exactly one group.
-/
import proofs.«140068_j21912923144500_2_alg».proof.Proof.Steps
import proofs.«140068_j21912923144500_2_alg».proof.Proof.Spec
import proofs.«140068_j21912923144500_2_alg».proof.Proof.LibMid3
import proofs.«140068_j21912923144500_2_alg».proof.Proof.LibKeepdims3
import proofs.«140068_j21912923144500_2_alg».proof.Proof.LibRowMin
import proofs.«140068_j21912923144500_2_alg».proof.Proof.LibMax3

noncomputable section

namespace Cert.KernelIdeal.PayMax

open Cert.KernelIdeal Cert.KernelIdeal.Gen Cert.KernelIdeal.Steps Idealize.ShloMosaic Idealize.ShloMosaic.ValueIdx
open Cert.Spec (av)
open Cert.LibMax3

/-! ## One group of sixteen positions -/

/-- The absolute values of a group's rows of x: the cast to the same shape and the change of format are the identity. -/
theorem absRows_apply (x : Vec Ideal S16x128 .f32) (s : Fin 16) (p : Fin 128) :
    k0_pay11 (F := Ideal) x (ix2 s p) = av (x (ix2 s p)) := by
  show (absf (shapeCast S16x128 x shapeCasts_S16x128_S16x128) : FVec Ideal S16x128 .f32) (ix2 s p) = _
  rw [shapeCast_self]
  rfl

/-- A group's product array: the absolute values of x's rows (already taken) along the last axis times those of W's rows
    along the middle one. -/
def prodT (xa : FVec Ideal S16x128 .bf16) (w : Vec Ideal S16x512 .f32) : FVec Ideal S16x128x512 .bf16 :=
  mulf (broadcastTo S16x128x512 (shapeCast S16x128x1 xa shapeCasts_S16x128_S16x128x1) broadcasts_S16x128x1_S16x128x512)
    (broadcastTo S16x128x512
      (shapeCast S16x1x512 (truncf .bf16 (absf (shapeCast S16x512 w shapeCasts_S16x512_S16x512)) bitsLt_bf16_f32)
        shapeCasts_S16x512_S16x1x512)
      broadcasts_S16x1x512_S16x128x512)

/-- The product array at (s, p, q). -/
theorem prodT_apply (xa : FVec Ideal S16x128 .bf16) (w : Vec Ideal S16x512 .f32) (s : Fin 16) (p : Fin 128) (q : Fin 512) :
    prodT xa w (ix3 s p q) = xa (ix2 s p) * av (w (ix2 s q)) := by
  show broadcastTo S16x128x512 (shapeCast S16x128x1 xa shapeCasts_S16x128_S16x128x1) broadcasts_S16x128x1_S16x128x512 (ix3 s p q)
      * broadcastTo S16x128x512
          (shapeCast S16x1x512 (truncf .bf16 (absf (shapeCast S16x512 w shapeCasts_S16x512_S16x512)) bitsLt_bf16_f32)
            shapeCasts_S16x512_S16x1x512)
          broadcasts_S16x1x512_S16x128x512 (ix3 s p q) = _
  refine congrArg₂ (· * ·) ?_ ?_
  · exact (Cert.Lib.Keepdims3.broadcastTo_ab1_abc_apply _ _ s p q).trans (Cert.Lib.Keepdims3.shapeCast_ab_ab1_apply xa _ s p 0)
  · refine (Cert.LibMid3.broadcastTo_shapeCast_ac_abc_apply _ _ _ s p q).trans ?_
    show (absf (shapeCast S16x512 w shapeCasts_S16x512_S16x512) : FVec Ideal S16x512 .f32) (ix2 s q) = _
    rw [shapeCast_self]
    rfl

/-- A group's maximum: the product array reduced by maximum over its leading axis from the word of minus infinity. -/
def chunk (xa : FVec Ideal S16x128 .bf16) (w : Vec Ideal S16x512 .f32) : FVec Ideal S128x512 .bf16 :=
  multiReduction .maximumf [0] S128x512 (prodT xa w) 0xFF80#16 reduces_S16x128x512_S128x512 (.inr rfl) rfl

/-- The supremum over a group's sixteen positions of |x| * |w|, at row p and column q. -/
def grp (x : Vec Ideal S16x128 .f32) (w : Vec Ideal S16x512 .f32) (p : Fin 128) (q : Fin 512) : EReal :=
  Finset.univ.sup fun s : Fin 16 => av (x (ix2 s p)) * av (w (ix2 s q))

/-- A group's maximum at (p, q) is the supremum over the group. -/
theorem chunk_apply (x : Vec Ideal S16x128 .f32) (w : Vec Ideal S16x512 .f32) (p : Fin 128) (q : Fin 512) :
    chunk (k0_pay11 x) w (ix2 p q) = grp x w p q := by
  refine (multiReduction_max_lead_apply (prodT (k0_pay11 x) w) 0xFF80#16 reduces_S16x128x512_S128x512 (.inr rfl) rfl p q).trans ?_
  rw [ofBits_bf16_neg_inf]
  refine (Cert.LibRowMin.fold_max_bot _).trans ?_
  refine congrArg (Finset.sup Finset.univ) (funext fun s => ?_)
  rw [prodT_apply, absRows_apply]

/-! ## The printed steps, read at (p, q) -/

/-- The total the chain starts from is zero everywhere. -/
theorem pay10_apply (p : Fin 128) (q : Fin 512) : k0_pay10 (F := Ideal) (ix2 p q) = 0 := by
  show Ideal.ofBits .bf16 0x0000#16 = 0
  exact ofBits_bf16_zero

/-- A prepared product array is the group's, the absolute values of x's rows taken first. -/
theorem pay13_eq (x : Vec Ideal S16x128 .f32) (w : Vec Ideal S16x512 .f32) :
    k0_pay13 (F := Ideal) x w = prodT (k0_pay11 x) w := rfl
theorem pay17_eq (x : Vec Ideal S16x128 .f32) (w : Vec Ideal S16x512 .f32) :
    k0_pay17 (F := Ideal) x w = prodT (k0_pay11 x) w := rfl
theorem pay15_eq (x : Vec Ideal S16x128 .f32) : k0_pay15 (F := Ideal) x = k0_pay11 x := rfl

/-- Two groups folded into a total. -/
theorem pay12_eq (c : FVec Ideal S128x512 .bf16) (xa : FVec Ideal S16x128 .bf16) (w0 : Vec Ideal S16x512 .f32)
    (x1 : Vec Ideal S16x128 .f32) (w1 : Vec Ideal S16x512 .f32) :
    k0_pay12 (F := Ideal) c xa w0 x1 w1 = maximumf (maximumf c (chunk xa w0)) (chunk (k0_pay11 x1) w1) := rfl

theorem pay12_apply (c : FVec Ideal S128x512 .bf16) (x0 : Vec Ideal S16x128 .f32) (w0 : Vec Ideal S16x512 .f32)
    (x1 : Vec Ideal S16x128 .f32) (w1 : Vec Ideal S16x512 .f32) (p : Fin 128) (q : Fin 512) :
    k0_pay12 (F := Ideal) c (k0_pay11 x0) w0 x1 w1 (ix2 p q) = max (max (c (ix2 p q)) (grp x0 w0 p q)) (grp x1 w1 p q) := by
  rw [pay12_eq, maximumf_apply, maximumf_apply, chunk_apply, chunk_apply]

/-- Three groups folded into a total, the first one's product array prepared before. -/
theorem pay14_eq (c : FVec Ideal S128x512 .bf16) (pr : FVec Ideal S16x128x512 .bf16)
    (x3 : Vec Ideal S16x128 .f32) (w3 : Vec Ideal S16x512 .f32) (x4 : Vec Ideal S16x128 .f32) (w4 : Vec Ideal S16x512 .f32) :
    k0_pay14 (F := Ideal) c pr x3 w3 x4 w4
      = maximumf (maximumf (maximumf c (multiReduction .maximumf [0] S128x512 pr 0xFF80#16 reduces_S16x128x512_S128x512 (.inr rfl) rfl))
          (chunk (k0_pay11 x3) w3)) (chunk (k0_pay11 x4) w4) := rfl

theorem pay14_apply (c : FVec Ideal S128x512 .bf16) (x2 : Vec Ideal S16x128 .f32) (w2 : Vec Ideal S16x512 .f32)
    (x3 : Vec Ideal S16x128 .f32) (w3 : Vec Ideal S16x512 .f32) (x4 : Vec Ideal S16x128 .f32) (w4 : Vec Ideal S16x512 .f32)
    (p : Fin 128) (q : Fin 512) :
    k0_pay14 (F := Ideal) c (k0_pay13 x2 w2) x3 w3 x4 w4 (ix2 p q)
      = max (max (max (c (ix2 p q)) (grp x2 w2 p q)) (grp x3 w3 p q)) (grp x4 w4 p q) := by
  rw [pay14_eq, pay13_eq, maximumf_apply, maximumf_apply, maximumf_apply, chunk_apply, chunk_apply]
  exact congrArg (fun t => max (max (max (c (ix2 p q)) t) (grp x3 w3 p q)) (grp x4 w4 p q)) (chunk_apply x2 w2 p q)

/-- Two groups folded into a total, the first one's absolute values of x taken before. -/
theorem pay16_eq (c : FVec Ideal S128x512 .bf16) (xa : FVec Ideal S16x128 .bf16) (w5 : Vec Ideal S16x512 .f32)
    (x6 : Vec Ideal S16x128 .f32) (w6 : Vec Ideal S16x512 .f32) :
    k0_pay16 (F := Ideal) c xa w5 x6 w6 = maximumf (maximumf c (chunk xa w5)) (chunk (k0_pay11 x6) w6) := rfl

theorem pay16_apply (c : FVec Ideal S128x512 .bf16) (x5 : Vec Ideal S16x128 .f32) (w5 : Vec Ideal S16x512 .f32)
    (x6 : Vec Ideal S16x128 .f32) (w6 : Vec Ideal S16x512 .f32) (p : Fin 128) (q : Fin 512) :
    k0_pay16 (F := Ideal) c (k0_pay15 x5) w5 x6 w6 (ix2 p q) = max (max (c (ix2 p q)) (grp x5 w5 p q)) (grp x6 w6 p q) := by
  rw [pay16_eq, pay15_eq, maximumf_apply, maximumf_apply, chunk_apply, chunk_apply]

/-- The last group folded in, and the result folded into the total before the point. -/
theorem pay1_eq (c : FVec Ideal S128x512 .bf16) (pr : FVec Ideal S16x128x512 .bf16) (acc : Vec Ideal S128x512 .f32) :
    k0_pay1 (F := Ideal) c pr acc
      = shapeCast S128x512
          (maximumf acc (extf .f32 (maximumf c (multiReduction .maximumf [0] S128x512 pr 0xFF80#16 reduces_S16x128x512_S128x512 (.inr rfl) rfl))
            bitsLt_bf16_f32))
          shapeCasts_S128x512_S128x512 := rfl

theorem pay1_apply (c : FVec Ideal S128x512 .bf16) (x7 : Vec Ideal S16x128 .f32) (w7 : Vec Ideal S16x512 .f32)
    (acc : Vec Ideal S128x512 .f32) (p : Fin 128) (q : Fin 512) :
    k0_pay1 (F := Ideal) c (k0_pay17 x7 w7) acc (ix2 p q) = max (acc (ix2 p q)) (max (c (ix2 p q)) (grp x7 w7 p q)) := by
  rw [pay1_eq, pay17_eq, shapeCast_self, maximumf_apply, extf_apply, maximumf_apply]
  exact congrArg (fun t => max (acc (ix2 p q)) (max (c (ix2 p q)) t)) (chunk_apply x7 w7 p q)

/-! ## A group's rows, loaded -/

/-- Sixteen rows of the x tile from row o on, read at (s, p): the tile at (o + s, p). -/
theorem ld_rows_x (X : Vec Ideal S128x128 .f32) (o : ℕ) (ho : o + 16 ≤ 128)
    (h : ∀ a, (![o, 0] : Fin 2 → ℕ) a + (![16, 128] : Fin 2 → ℕ) a ≤ S128x128.size a) (s : Fin 16) (p : Fin 128) :
    View.ld X (Rect.unit ![o, 0] ![16, 128] h) (ix2 s p) = X (ix2 (⟨o + s.val, by omega⟩ : Fin 128) p) := by
  refine congrArg X (funext fun d => Fin.ext ?_)
  match d with
  | ⟨0, _⟩ => show o + 1 * s.val = o + s.val; omega
  | ⟨1, _⟩ => show 0 + 1 * p.val = p.val; omega

/-- Sixteen rows of the W tile from row o on, read at (s, q): the tile at (o + s, q). -/
theorem ld_rows_w (Wb : Vec Ideal S128x512 .f32) (o : ℕ) (ho : o + 16 ≤ 128)
    (h : ∀ a, (![o, 0] : Fin 2 → ℕ) a + (![16, 512] : Fin 2 → ℕ) a ≤ S128x512.size a) (s : Fin 16) (q : Fin 512) :
    View.ld Wb (Rect.unit ![o, 0] ![16, 512] h) (ix2 s q) = Wb (ix2 (⟨o + s.val, by omega⟩ : Fin 128) q) := by
  refine congrArg Wb (funext fun d => Fin.ext ?_)
  match d with
  | ⟨0, _⟩ => show o + 1 * s.val = o + s.val; omega
  | ⟨1, _⟩ => show 0 + 1 * q.val = q.val; omega

/-- The supremum of a family over the sixteen positions from o on. -/
def seg (a : Fin 128 → EReal) (o : ℕ) (ho : o + 16 ≤ 128) : EReal :=
  Finset.univ.sup fun s : Fin 16 => a (⟨o + s.val, by omega⟩ : Fin 128)

/-- A loaded group's supremum is the supremum of |X(r, p)| * |W(r, q)| over the group's positions r. -/
theorem grp_ld (X : Vec Ideal S128x128 .f32) (Wb : Vec Ideal S128x512 .f32) (o : ℕ) (ho : o + 16 ≤ 128)
    (h : ∀ a, (![o, 0] : Fin 2 → ℕ) a + (![16, 128] : Fin 2 → ℕ) a ≤ S128x128.size a)
    (h' : ∀ a, (![o, 0] : Fin 2 → ℕ) a + (![16, 512] : Fin 2 → ℕ) a ≤ S128x512.size a) (p : Fin 128) (q : Fin 512) :
    grp (View.ld X (Rect.unit ![o, 0] ![16, 128] h)) (View.ld Wb (Rect.unit ![o, 0] ![16, 512] h')) p q
      = seg (fun r => av (X (ix2 r p)) * av (Wb (ix2 r q))) o ho := by
  unfold grp seg
  refine congrArg (Finset.sup Finset.univ) (funext fun s => ?_)
  rw [ld_rows_x X o ho h s p, ld_rows_w Wb o ho h' s q]

/-! ## The eight groups are all 128 positions -/

theorem seg_le (a : Fin 128 → EReal) (o : ℕ) (ho : o + 16 ≤ 128) : seg a o ho ≤ max 0 (Finset.univ.sup a) :=
  le_max_of_le_right (Finset.sup_le fun s _ => Finset.le_sup (f := a) (Finset.mem_univ _))

theorem le_seg (a : Fin 128 → EReal) (o : ℕ) (ho : o + 16 ≤ 128) (r : Fin 128) (h1 : o ≤ r.val) (h2 : r.val < o + 16) :
    a r ≤ seg a o ho := by
  have e : a r = (fun s : Fin 16 => a (⟨o + s.val, by omega⟩ : Fin 128)) (⟨r.val - o, by omega⟩ : Fin 16) :=
    congrArg a (Fin.ext (by show r.val = o + (r.val - o); omega))
  rw [e]
  exact Finset.le_sup (f := fun s : Fin 16 => a (⟨o + s.val, by omega⟩ : Fin 128)) (Finset.mem_univ _)

/-- The eight groups' suprema folded by max from zero: the supremum over all 128 positions, or zero. -/
theorem chain_eq (a : Fin 128 → EReal) :
    max (max (max (max (max (max (max (max 0 (seg a 0 (by omega))) (seg a 16 (by omega))) (seg a 32 (by omega)))
      (seg a 48 (by omega))) (seg a 64 (by omega))) (seg a 80 (by omega))) (seg a 96 (by omega))) (seg a 112 (by omega))
      = max 0 (Finset.univ.sup a) := by
  apply le_antisymm
  · refine max_le (max_le (max_le (max_le (max_le (max_le (max_le (max_le (le_max_left _ _) ?_) ?_) ?_) ?_) ?_) ?_) ?_) ?_ <;>
      exact seg_le a _ _
  · refine max_le ?_ (Finset.sup_le fun r _ => ?_)
    · simp only [le_max_iff, le_refl, true_or]
    · have hr := r.isLt
      have key : a r ≤ seg a 0 (by omega) ∨ a r ≤ seg a 16 (by omega) ∨ a r ≤ seg a 32 (by omega) ∨ a r ≤ seg a 48 (by omega)
          ∨ a r ≤ seg a 64 (by omega) ∨ a r ≤ seg a 80 (by omega) ∨ a r ≤ seg a 96 (by omega) ∨ a r ≤ seg a 112 (by omega) := by
        by_cases c0 : r.val < 16
        · exact Or.inl (le_seg a 0 _ r (by omega) (by omega))
        by_cases c1 : r.val < 32
        · exact Or.inr (Or.inl (le_seg a 16 _ r (by omega) (by omega)))
        by_cases c2 : r.val < 48
        · exact Or.inr (Or.inr (Or.inl (le_seg a 32 _ r (by omega) (by omega))))
        by_cases c3 : r.val < 64
        · exact Or.inr (Or.inr (Or.inr (Or.inl (le_seg a 48 _ r (by omega) (by omega)))))
        by_cases c4 : r.val < 80
        · exact Or.inr (Or.inr (Or.inr (Or.inr (Or.inl (le_seg a 64 _ r (by omega) (by omega))))))
        by_cases c5 : r.val < 96
        · exact Or.inr (Or.inr (Or.inr (Or.inr (Or.inr (Or.inl (le_seg a 80 _ r (by omega) (by omega)))))))
        by_cases c6 : r.val < 112
        · exact Or.inr (Or.inr (Or.inr (Or.inr (Or.inr (Or.inr (Or.inl (le_seg a 96 _ r (by omega) (by omega))))))))
        · exact Or.inr (Or.inr (Or.inr (Or.inr (Or.inr (Or.inr (Or.inr (le_seg a 112 _ r (by omega) (by omega))))))))
      simp only [le_max_iff]
      tauto

/-! ## The step -/

/-- The running maximum after a point, at row p and column q: the maximum of the total before the point and of
    |X(r, p)| * |W(r, q)| over the point's 128 positions r (or zero). -/
theorem maxStep_apply (X : Vec Ideal S128x128 .f32) (Wb acc : Vec Ideal S128x512 .f32) (p : Fin 128) (q : Fin 512) :
    maxStep (F := Ideal) X Wb acc (ix2 p q)
      = max (acc (ix2 p q)) (max 0 (Finset.univ.sup fun r : Fin 128 => Cert.Spec.av (X (ix2 r p)) * Cert.Spec.av (Wb (ix2 r q)))) := by
  unfold maxStep
  rw [pay1_apply, pay16_apply, pay14_apply, pay12_apply, pay10_apply]
  rw [grp_ld X Wb 0 (by omega), grp_ld X Wb 16 (by omega), grp_ld X Wb 32 (by omega), grp_ld X Wb 48 (by omega),
    grp_ld X Wb 64 (by omega), grp_ld X Wb 80 (by omega), grp_ld X Wb 96 (by omega), grp_ld X Wb 112 (by omega)]
  rw [chain_eq]

end Cert.KernelIdeal.PayMax

end
-- ==== Proof.Inv.lean ====
/-
  The three running totals after every grid point, by induction on the point.

  Point t works on output half t / 8 and input tile t % 8.  After it, at row p and column q of the half, the totals are
  the sum of x(p,i)·W(n,i), the sum of |x(p,i)|·|W(n,i)| and the supremum from zero of |x(p,i)|·|W(n,i)| over the first
  128·(t % 8 + 1) input positions i, n = 512·(t / 8) + q being the output column: the first point of a sweep starts the
  totals from zero, every other point adds its tile to what the point before left.  After the last point of a sweep
  all 1024 positions are in, and the tile it writes out is dot + c·(max − abs).
-/
import proofs.«140068_j21912923144500_2_alg».proof.Proof.Pieces
import proofs.«140068_j21912923144500_2_alg».proof.Proof.Blocks
import proofs.«140068_j21912923144500_2_alg».proof.Proof.Totals
import proofs.«140068_j21912923144500_2_alg».proof.Proof.PayDot
import proofs.«140068_j21912923144500_2_alg».proof.Proof.PayMax

noncomputable section

namespace Cert.KernelIdeal.Inv

open Cert.KernelIdeal Cert.KernelIdeal.Gen Cert.KernelIdeal.Steps Cert.KernelIdeal.Blocks Cert.Spec
open Idealize.ShloMosaic Idealize.ShloMosaic.TcCoe Idealize.SL.Sem Idealize.ShloMosaic.ValueIdx

variable (m : (ℓ : Loc nD τ sig) → Buf (Elt Ideal) ℓ)

/-- The scale of the correction term: the same word in both programs. -/
abbrev cst : EReal := Ideal.ofBits .f32 0x3C23D70A#32

/-! ## What a point leaves, case by case, as steps of what the point before left -/

/-- The first point of a sweep: each total is its step from the zero tile. -/
theorem outs_first (c : Dev nD) (t : Fin cfg0.N) (h0 : t.val % 8 = 0) (h1 : ¬t.val % 8 = 7) :
    (outsAt0 m c t.val t.isLt).2.1 = dotStep (iblk m c 0 t) (iblk m c 1 t) zeroTile
    ∧ (outsAt0 m c t.val t.isLt).2.2.1 = absStep (iblk m c 0 t) (iblk m c 1 t) zeroTile
    ∧ (outsAt0 m c t.val t.isLt).2.2.2 = maxStep (iblk m c 0 t) (iblk m c 1 t) zeroTile := by
  rw [outsAt0_A m c t h0 h1]
  dsimp only
  exact ⟨Pieces.sA_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    Pieces.sA_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    Pieces.sA_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- A middle point of a sweep: each total is its step from what the point before left. -/
theorem outs_mid (c : Dev nD) (t : Fin cfg0.N) (h0 : ¬t.val % 8 = 0) (h1 : ¬t.val % 8 = 7) :
    (outsAt0 m c t.val t.isLt).2.1 = dotStep (iblk m c 0 t) (iblk m c 1 t) (outsAt0 m c (t.val - 1) (Nat.lt_of_le_of_lt (Nat.sub_le _ _) t.isLt)).2.1
    ∧ (outsAt0 m c t.val t.isLt).2.2.1 = absStep (iblk m c 0 t) (iblk m c 1 t) (outsAt0 m c (t.val - 1) (Nat.lt_of_le_of_lt (Nat.sub_le _ _) t.isLt)).2.2.1
    ∧ (outsAt0 m c t.val t.isLt).2.2.2 = maxStep (iblk m c 0 t) (iblk m c 1 t) (outsAt0 m c (t.val - 1) (Nat.lt_of_le_of_lt (Nat.sub_le _ _) t.isLt)).2.2.2 := by
  rw [outsAt0_B m c t h0 h1]
  dsimp only
  exact ⟨Pieces.sB_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sB_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sB_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last point of a sweep: the totals step as at a middle point, and the tile written out is
    dot + c·(max − abs) of the totals just updated. -/
theorem outs_last (c : Dev nD) (t : Fin cfg0.N) (h0 : ¬t.val % 8 = 0) (h1 : t.val % 8 = 7) :
    (outsAt0 m c t.val t.isLt).1 = outStep (outsAt0 m c t.val t.isLt).2.1 (outsAt0 m c t.val t.isLt).2.2.2 (outsAt0 m c t.val t.isLt).2.2.1
    ∧ (outsAt0 m c t.val t.isLt).2.1 = dotStep (iblk m c 0 t) (iblk m c 1 t) (outsAt0 m c (t.val - 1) (Nat.lt_of_le_of_lt (Nat.sub_le _ _) t.isLt)).2.1
    ∧ (outsAt0 m c t.val t.isLt).2.2.1 = absStep (iblk m c 0 t) (iblk m c 1 t) (outsAt0 m c (t.val - 1) (Nat.lt_of_le_of_lt (Nat.sub_le _ _) t.isLt)).2.2.1
    ∧ (outsAt0 m c t.val t.isLt).2.2.2 = maxStep (iblk m c 0 t) (iblk m c 1 t) (outsAt0 m c (t.val - 1) (Nat.lt_of_le_of_lt (Nat.sub_le _ _) t.isLt)).2.2.2 := by
  rw [outsAt0_C m c t h0 h1]
  dsimp only
  refine ⟨?_, ?_, ?_, ?_⟩
  · refine (Pieces.oC_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    refine congr (congr (congrArg outStep ?_) ?_) ?_
    · exact (Pieces.sC_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm
    · exact (Pieces.sC_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm
    · exact (Pieces.sC_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).symm
  · exact Pieces.sC_0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact Pieces.sC_1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact Pieces.sC_2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## One point's step of each total -/

theorem dot_point (c : Dev nD) (t : Fin cfg0.N) (acc : Vec Ideal S128x512 .f32) (p : Fin 128) (q : Fin 512)
    (hacc : acc (ix2 p q) = dotUpTo (XT m c) (WT m c) (128 * (t.val % 8)) p.val (512 * (t.val / 8) + q.val)) :
    dotStep (iblk m c 0 t) (iblk m c 1 t) acc (ix2 p q)
      = dotUpTo (XT m c) (WT m c) (128 * (t.val % 8 + 1)) p.val (512 * (t.val / 8) + q.val) := by
  refine (PayDot.dotStep_apply (iblk m c 0 t) (iblk m c 1 t) acc p q).trans ?_
  rw [hacc]
  refine Eq.trans ?_ (dotUpTo_step (XT m c) (WT m c) (t.val % 8) p.val (512 * (t.val / 8) + q.val))
  refine congrArg (_ + ·) (Finset.sum_congr rfl fun r _ => ?_)
  exact congrArg₂ (· * ·) (iblk0_at m c t r p) (iblk1_at m c t r q)

theorem abs_point (c : Dev nD) (t : Fin cfg0.N) (acc : Vec Ideal S128x512 .f32) (p : Fin 128) (q : Fin 512)
    (hacc : acc (ix2 p q) = absUpTo (XT m c) (WT m c) (128 * (t.val % 8)) p.val (512 * (t.val / 8) + q.val)) :
    absStep (iblk m c 0 t) (iblk m c 1 t) acc (ix2 p q)
      = absUpTo (XT m c) (WT m c) (128 * (t.val % 8 + 1)) p.val (512 * (t.val / 8) + q.val) := by
  refine (PayDot.absStep_apply (iblk m c 0 t) (iblk m c 1 t) acc p q).trans ?_
  rw [hacc]
  refine Eq.trans ?_ (absUpTo_step (XT m c) (WT m c) (t.val % 8) p.val (512 * (t.val / 8) + q.val))
  refine congrArg (_ + ·) (Finset.sum_congr rfl fun r _ => ?_)
  exact congrArg₂ (fun a b => av a * av b) (iblk0_at m c t r p) (iblk1_at m c t r q)

theorem max_point (c : Dev nD) (t : Fin cfg0.N) (acc : Vec Ideal S128x512 .f32) (p : Fin 128) (q : Fin 512)
    (hacc : acc (ix2 p q) = maxUpTo (XT m c) (WT m c) (128 * (t.val % 8)) p.val (512 * (t.val / 8) + q.val)) :
    maxStep (iblk m c 0 t) (iblk m c 1 t) acc (ix2 p q)
      = maxUpTo (XT m c) (WT m c) (128 * (t.val % 8 + 1)) p.val (512 * (t.val / 8) + q.val) := by
  refine (PayMax.maxStep_apply (iblk m c 0 t) (iblk m c 1 t) acc p q).trans ?_
  rw [hacc]
  refine Eq.trans ?_ (maxUpTo_step (XT m c) (WT m c) (t.val % 8) p.val (512 * (t.val / 8) + q.val))
  refine congrArg (max _ ·) (congrArg (max 0 ·) (congrArg (Finset.sup Finset.univ) (funext fun r => ?_)))
  exact congrArg₂ (fun a b => av a * av b) (iblk0_at m c t r p) (iblk1_at m c t r q)

/-! ## The totals after every point -/

/-- The totals after point n at row p, column q of the point's output half. -/
def Totals (c : Dev nD) (n : ℕ) (hn : n < cfg0.N) (p : Fin 128) (q : Fin 512) : Prop :=
  (outsAt0 m c n hn).2.1 (ix2 p q) = dotUpTo (XT m c) (WT m c) (128 * (n % 8 + 1)) p.val (512 * (n / 8) + q.val)
  ∧ (outsAt0 m c n hn).2.2.1 (ix2 p q) = absUpTo (XT m c) (WT m c) (128 * (n % 8 + 1)) p.val (512 * (n / 8) + q.val)
  ∧ (outsAt0 m c n hn).2.2.2 (ix2 p q) = maxUpTo (XT m c) (WT m c) (128 * (n % 8 + 1)) p.val (512 * (n / 8) + q.val)

/-- At the first point of a sweep the totals are the first tile's. -/
theorem totals_first (c : Dev nD) (t : Fin cfg0.N) (h0 : t.val % 8 = 0) (p : Fin 128) (q : Fin 512) :
    Totals m c t.val t.isLt p q := by
  obtain ⟨e0, e1, e2⟩ := outs_first m c t h0 (by omega)
  have z : zeroTile (F := Ideal) (ix2 p q) = 0 := PayDot.zeroTile_apply _
  refine ⟨(congrFun e0 (ix2 p q)).trans (dot_point m c t zeroTile p q ?_),
    (congrFun e1 (ix2 p q)).trans (abs_point m c t zeroTile p q ?_),
    (congrFun e2 (ix2 p q)).trans (max_point m c t zeroTile p q ?_)⟩
  · rw [h0, z]; exact (dotUpTo_zero _ _ _ _).symm
  · rw [h0, z]; exact (absUpTo_zero _ _ _ _).symm
  · rw [h0, z]; exact (maxUpTo_zero _ _ _ _).symm

/-- At any other point they are the point before's plus this point's tile. -/
theorem totals_next (c : Dev nD) (n : ℕ) (hn : n + 1 < cfg0.N) (h0 : ¬(n + 1) % 8 = 0) (p : Fin 128) (q : Fin 512)
    (ih : Totals m c n (Nat.lt_of_succ_lt hn) p q) : Totals m c (n + 1) hn p q := by
  have em : n % 8 + 1 = (n + 1) % 8 := by omega
  have ed : n / 8 = (n + 1) / 8 := by omega
  obtain ⟨i0, i1, i2⟩ := ih
  have hd : (outsAt0 m c n (Nat.lt_of_succ_lt hn)).2.1 (ix2 p q)
      = dotUpTo (XT m c) (WT m c) (128 * ((n + 1) % 8)) p.val (512 * ((n + 1) / 8) + q.val) := by rw [← em, ← ed]; exact i0
  have ha : (outsAt0 m c n (Nat.lt_of_succ_lt hn)).2.2.1 (ix2 p q)
      = absUpTo (XT m c) (WT m c) (128 * ((n + 1) % 8)) p.val (512 * ((n + 1) / 8) + q.val) := by rw [← em, ← ed]; exact i1
  have hm : (outsAt0 m c n (Nat.lt_of_succ_lt hn)).2.2.2 (ix2 p q)
      = maxUpTo (XT m c) (WT m c) (128 * ((n + 1) % 8)) p.val (512 * ((n + 1) / 8) + q.val) := by rw [← em, ← ed]; exact i2
  have steps : (outsAt0 m c (n + 1) hn).2.1 = dotStep (iblk m c 0 ⟨n + 1, hn⟩) (iblk m c 1 ⟨n + 1, hn⟩) (outsAt0 m c n (Nat.lt_of_succ_lt hn)).2.1
      ∧ (outsAt0 m c (n + 1) hn).2.2.1 = absStep (iblk m c 0 ⟨n + 1, hn⟩) (iblk m c 1 ⟨n + 1, hn⟩) (outsAt0 m c n (Nat.lt_of_succ_lt hn)).2.2.1
      ∧ (outsAt0 m c (n + 1) hn).2.2.2 = maxStep (iblk m c 0 ⟨n + 1, hn⟩) (iblk m c 1 ⟨n + 1, hn⟩) (outsAt0 m c n (Nat.lt_of_succ_lt hn)).2.2.2 := by
    by_cases h1 : (n + 1) % 8 = 7
    · exact (outs_last m c ⟨n + 1, hn⟩ h0 h1).2
    · exact outs_mid m c ⟨n + 1, hn⟩ h0 h1
  obtain ⟨e0, e1, e2⟩ := steps
  exact ⟨(congrFun e0 (ix2 p q)).trans (dot_point m c ⟨n + 1, hn⟩ _ p q hd),
    (congrFun e1 (ix2 p q)).trans (abs_point m c ⟨n + 1, hn⟩ _ p q ha),
    (congrFun e2 (ix2 p q)).trans (max_point m c ⟨n + 1, hn⟩ _ p q hm)⟩

/-- The totals after every point. -/
theorem totals (c : Dev nD) (p : Fin 128) (q : Fin 512) : ∀ (n : ℕ) (hn : n < cfg0.N), Totals m c n hn p q
  | 0, hn => totals_first m c ⟨0, hn⟩ rfl p q
  | n + 1, hn => by
    by_cases h0 : (n + 1) % 8 = 0
    · exact totals_first m c ⟨n + 1, hn⟩ h0 p q
    · exact totals_next m c n hn h0 p q (totals c p q n (Nat.lt_of_succ_lt hn))

/-! ## What the last point of a sweep writes out -/

theorem out_point (c : Dev nD) (t : Fin cfg0.N) (h7 : t.val % 8 = 7) (p : Fin 128) (q : Fin 512)
    (hq : 512 * (t.val / 8) + q.val < 1024) :
    (outsAt0 m c t.val t.isLt).1 (ix2 p q) = H cst (XT m c) (WT m c) (ix2 p ⟨512 * (t.val / 8) + q.val, hq⟩) := by
  obtain ⟨e, -⟩ := outs_last m c t (by omega) h7
  obtain ⟨t0, t1, t2⟩ := totals m c p q t.val t.isLt
  refine (congrFun e (ix2 p q)).trans ?_
  refine (PayDot.outStep_apply _ _ _ (ix2 p q)).trans ?_
  rw [t0, t1, t2, h7]
  rfl

end Cert.KernelIdeal.Inv

end
-- ==== Proof.Final.lean ====
/-
  From the tiles the grid writes back to the whole result array, then the kernel's run.

  The result array [128, 1024] is written in two halves of 512 output columns: the last point of each sweep over the
  eight input tiles (the points t with t % 8 = 7) writes the tile of rows 0..127 and output columns
  512·(t / 8) .. 512·(t / 8) + 511. What such a point writes is the function H of the two transposed matrices, read
  through its tile; every index (b, n) of the array lies in the tile of the point 8·(n / 512) + 7; so after the run the
  array holds H, which is G of the two argument matrices since the region finds them transposed.
-/
import proofs.«140068_j21912923144500_2_alg».proof.Proof.Inv
import proofs.«140068_j21912923144500_2_alg».proof.Proof.Gen.KernelIdeal.Value
import Idealize.ShloMosaic.Lib.Pipeline.Value

noncomputable section

namespace Cert.KernelIdeal.Final

open Cert.KernelIdeal Cert.KernelIdeal.Gen Cert.KernelIdeal.Blocks Cert.KernelIdeal.Inv Cert.Spec Idealize.ShloMosaic Idealize.ShloMosaic.TcCoe Idealize.SL.Sem Idealize.ShloMosaic.ValueIdx

variable (m : (ℓ : Loc nD τ sig) → Buf (Elt Ideal) ℓ) (ρ : Dev nD → PrngReg)

/-- Where the entry (p, q) of the tile written back at point t sits in the array: row p, output column 512·(t / 8) + q. -/
theorem blk_emb (t : Fin cfg0.N) (p : Fin 128) (q : Fin 512) (hq : 512 * (t.val / 8) + q.val < 1024) :
    (ix2 p ⟨512 * (t.val / 8) + q.val, hq⟩ : S128x1024.Idx) = ((cfg0.win 2).blk t).view.emb (ix2 p q : S128x512.Idx) := by
  funext a
  apply Fin.ext
  match a with
  | ⟨0, _⟩ => show p.val = win0_2.index t 0 * 128 + 1 * p.val; rw [(idx2 t).1]; omega
  | ⟨1, _⟩ => show 512 * (t.val / 8) + q.val = win0_2.index t 1 * 512 + 1 * q.val; rw [(idx2 t).2]; omega

/-- What a point that writes back writes is H of the transposed matrices read through the point's tile. -/
theorem flushed_eq (c : Dev nD) (t : Fin cfg0.N) (hf : (cfg0.win 2).flush t = true) :
    (dats m 0 c).flushed 2 t = ((cfg0.win 2).blk t).view.read (Elt Ideal) (H cst (XT m c) (WT m c)) := by
  have h7 : t.val % 8 = 7 := (flush0_2 t).mp hf
  have hN : t.val < 16 := lt_of_lt_of_eq t.isLt (show cfg0.N = 16 from N_0)
  have key : ∀ y : S128x512.Idx, (outsAt0 m c t.val t.isLt).1 y
      = H cst (XT m c) (WT m c) (((cfg0.win 2).blk t).view.emb y) := by
    intro y
    obtain ⟨p, q, rfl⟩ : ∃ (p : Fin 128) (q : Fin 512), y = ix2 p q := ⟨y 0, y 1, eq_ix2 y⟩
    have hq : 512 * (t.val / 8) + q.val < 1024 := by have := q.isLt; omega
    exact (out_point m c t h7 p q hq).trans (congrArg (H cst (XT m c) (WT m c)) (blk_emb t p q hq))
  rw [Value.flushed2]
  refine funext fun y => ?_
  rw [View.read_apply]
  exact key y

/-- An index of the array is in point t's tile iff each coordinate is in the tile's range on its axis. -/
theorem mem_blk (t : Fin cfg0.N) (i : S128x1024.Idx) :
    i ∈ ((cfg0.win 2).blk t).view.set ↔ ∀ a : Fin 2, win0_2.index t a * S128x512.size a ≤ (i a).val ∧ (i a).val < win0_2.index t a * S128x512.size a + S128x512.size a := by
  show i ∈ ((View.whole main_v2).slice (win0_2.rect t)).set ↔ _
  rw [View.set_slice_whole, Rect.mem_set_unit]
  exact Iff.rfl

/-- Every index (b, n) of the array is in the tile of a point that writes back: the point 8·(n / 512) + 7. -/
theorem cover (i : S128x1024.Idx) :
    ∃ t : Fin cfg0.N, (cfg0.win 2).flush t = true ∧ i ∈ ((cfg0.win 2).blk t).view.set := by
  have hi0 : (i 0).val < 128 := (i 0).isLt
  have hi1 : (i 1).val < 1024 := (i 1).isLt
  obtain ⟨t, ht⟩ : ∃ t : Fin cfg0.N, t.val = 8 * ((i 1).val / 512) + 7 :=
    ⟨⟨8 * ((i 1).val / 512) + 7, lt_of_lt_of_eq (by omega : 8 * ((i 1).val / 512) + 7 < 16) (show cfg0.N = 16 from N_0).symm⟩, rfl⟩
  refine ⟨t, (flush0_2 t).mpr (by omega), ?_⟩
  rw [mem_blk]
  intro a
  match a with
  | ⟨0, _⟩ =>
    show win0_2.index t 0 * 128 ≤ (i 0).val ∧ (i 0).val < win0_2.index t 0 * 128 + 128
    rw [(idx2 t).1]; omega
  | ⟨1, _⟩ =>
    show win0_2.index t 1 * 512 ≤ (i 1).val ∧ (i 1).val < win0_2.index t 1 * 512 + 512
    rw [(idx2 t).2]; omega

/-- The result array after the run is H of the transposed matrices. -/
theorem final (c : Dev nD) : (dats m 0 c).arrAt 2 cfg0.N = H cst (XT m c) (WT m c) :=
  (dats m 0 c).arrAt_eq_of_cover 2 (H cst (XT m c) (WT m c)) (flushed_eq m c) cover

/-- The kernel's run: the result array is G of the two argument matrices, which the run leaves as they were. -/
theorem run : θ_run defs (onTc (τ := τ) (main (F := Ideal))) ⟨m, fun _ => 0, ρ⟩ fun r => ∀ c : Dev nD,
      r.2.mem ((c : Thread nD τ).loc main_v2) = G cst (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans
      (H_eq_G cst _ _ (XT m c) (WT m c) (fun i p => XT_apply m c i p) (fun i q => WT_apply m c i q))), (h c).2⟩)
    (Value.run_blocks m ρ)

end Cert.KernelIdeal.Final

end
-- ==== Proof.RefValue.lean ====
/-
  The reference program computes the function G.

  The reference forms, from an activation matrix x [128, 1024] and a weight matrix W [1024, 1024] (output column first),
  the product x @ W^T, the product |x| @ |W|^T, and the maximum over the input position k of the rank-3 array
  |x|(b,k) * |W|(n,k); its result is the first plus the constant times (the maximum minus the second). Read at row b
  and output column n, each of the three is a sum or a supremum over k of a product of one entry of x (or |x|) at (b, k)
  and one entry of W (or |W|) at (n, k): the transposes and broadcasts only move coordinates. The maximum is a fold of
  max from minus infinity, the bottom element of the extended reals, so it is the supremum over all k.
-/
import proofs.«140068_j21912923144500_2_alg».proof.Proof.Gen.ReferenceIdeal.Read
import proofs.«140068_j21912923144500_2_alg».proof.Proof.Spec
import proofs.«140068_j21912923144500_2_alg».proof.Proof.LibRowMin
import proofs.«140068_j21912923144500_2_alg».proof.Proof.LibMax3
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec Cert.LibMax3

variable (x0 : (⟨S128x1024, .f32⟩ : BufTy).Contents (Elt Ideal)) (x1 : (⟨S1024x1024, .f32⟩ : BufTy).Contents (Elt Ideal))

/-! ## The coordinates the layout operations move -/

theorem lidx13_eq (p : Fin 128) (n k : Fin 1024) : lidx_main_v13 (ix2 p n) k = ix2 p k :=
  funext fun a => Fin.ext (by match a with | ⟨0, _⟩ => rfl | ⟨1, _⟩ => rfl)
theorem ridx13_eq (p : Fin 128) (n k : Fin 1024) : idx_main_v12 (ridx_main_v13 (ix2 p n) k) = ix2 n k :=
  funext fun a => Fin.ext (by match a with | ⟨0, _⟩ => rfl | ⟨1, _⟩ => rfl)
theorem lidx3_eq (p : Fin 128) (n k : Fin 1024) : lidx_main_v3 (ix2 p n) k = ix2 p k :=
  funext fun a => Fin.ext (by match a with | ⟨0, _⟩ => rfl | ⟨1, _⟩ => rfl)
theorem ridx3_eq (p : Fin 128) (n k : Fin 1024) : idx_main_v2 (ridx_main_v3 (ix2 p n) k) = ix2 n k :=
  funext fun a => Fin.ext (by match a with | ⟨0, _⟩ => rfl | ⟨1, _⟩ => rfl)
theorem idx47_eq (p : Fin 128) (k n : Fin 1024) : idx_main_v4 (idx_main_v7 (ix3 p k n)) = ix2 p k :=
  funext fun a => Fin.ext (by match a with | ⟨0, _⟩ => rfl | ⟨1, _⟩ => rfl)
theorem idx568_eq (p : Fin 128) (k n : Fin 1024) : idx_main_v5 (idx_main_v6 (idx_main_v8 (ix3 p k n))) = ix2 n k :=
  funext fun a => Fin.ext (by match a with | ⟨0, _⟩ => rfl | ⟨1, _⟩ => rfl)

/-! ## The three reductions, read at row `p` and output column `n` -/

/-- x @ W^T at (p, n). -/
theorem v13_at (p : Fin 128) (n : Fin 1024) :
    val_main_v13 (F := Ideal) x0 x1 (ix2 p n) = ∑ k : Fin 1024, x0 (ix2 p k) * x1 (ix2 n k) := by
  rw [val_main_v13_apply]
  refine Finset.sum_congr rfl fun k _ => ?_
  rw [val_main_v12_apply, lidx13_eq, ridx13_eq]

/-- |x| @ |W|^T at (p, n). -/
theorem v3_at (p : Fin 128) (n : Fin 1024) :
    val_main_v3 (F := Ideal) x0 x1 (ix2 p n) = ∑ k : Fin 1024, av (x0 (ix2 p k)) * av (x1 (ix2 n k)) := by
  rw [val_main_v3_apply]
  refine Finset.sum_congr rfl fun k _ => ?_
  rw [val_main_v0_apply, val_main_v2_apply, val_main_v1_apply, lidx3_eq, ridx3_eq]
  rfl

/-- The rank-3 product at (p, k, n). -/
theorem v9_at (p : Fin 128) (k n : Fin 1024) :
    val_main_v9 (F := Ideal) x0 x1 (ix3 p k n) = av (x0 (ix2 p k)) * av (x1 (ix2 n k)) := by
  rw [val_main_v9_apply, val_main_v7_apply, val_main_v4_apply, val_main_v0_apply, val_main_v8_apply, val_main_v6_apply,
    val_main_v5_apply, val_main_v1_apply, idx47_eq, idx568_eq]
  rfl

/-- The maximum over the input position at (p, n): the supremum of the products. -/
theorem v10_at (p : Fin 128) (n : Fin 1024) :
    val_main_v10 (F := Ideal) x0 x1 (ix2 p n)
      = Finset.univ.sup fun k : Fin 1024 => av (x0 (ix2 p k)) * av (x1 (ix2 n k)) := by
  unfold val_main_v10
  refine (hostReduce_max_mid3_apply (val_main_v9 (F := Ideal) x0 x1) (val_main_cst (F := Ideal))
    reducesTo_S128x1024x1024_S128x1024_d1 (by decide) h_S_ p n).trans ?_
  rw [val_main_cst_apply, Ideal.ofBits_def, Cert.LibRowMin.ofBits_neg_inf,
    show (fun k : Fin 1024 => val_main_v9 (F := Ideal) x0 x1 (ix3 p k n))
      = fun k : Fin 1024 => av (x0 (ix2 p k)) * av (x1 (ix2 n k)) from funext fun k => v9_at x0 x1 p k n]
  exact Cert.LibRowMin.fold_max_bot _

/-- The constant, broadcast. -/
theorem v14_at (i : S128x1024.Idx) : val_main_v14 (F := Ideal) i = Ideal.ofBits .f32 0x3C23D70A#32 := by
  rw [val_main_v14_apply, val_main_cst_0_apply, Ideal.ofBits_def]

/-! ## The reference is G -/

theorem ref_eq (x0 : (⟨Cert.ReferenceIdeal.S128x1024, .f32⟩ : BufTy).Contents (Elt Ideal)) (x1 : (⟨Cert.ReferenceIdeal.S1024x1024, .f32⟩ : BufTy).Contents (Elt Ideal)) :
    Cert.ReferenceIdeal.Read.val_main_v16 (F := Ideal) x0 x1 = Cert.Spec.G (Ideal.ofBits .f32 0x3C23D70A#32) x0 x1 := by
  funext i
  obtain ⟨p, n, rfl⟩ : ∃ (p : Fin 128) (n : Fin 1024), i = ix2 p n := ⟨i 0, i 1, eq_ix2 i⟩
  rw [val_main_v16_apply, val_main_v15_apply, val_main_v11_apply, v13_at, v14_at, v10_at, v3_at]
  rfl

end Cert.ReferenceIdeal.RefValue

end
-- ==== Proof.lean ====
/-
  The kernel against its reference.

  Both compute, for x of shape [128, 1024] and W of shape [1024, 1024], at row b and output column n,

      out(b, n) = sum_k x(b,k)·W(n,k)  +  c · ( max_k |x(b,k)|·|W(n,k)|  −  sum_k |x(b,k)|·|W(n,k)| ),

  c the one float constant both programs carry as the same word.  The reference writes this with two matrix products
  and a maximum, from minus infinity, over the [128, 1024, 1024] array of products.  The kernel transposes both
  matrices, sweeps the 1024 input positions in eight tiles of 128 for each half of the output columns, keeps three
  running totals (the two sums and the maximum, the latter started at zero and taken sixteen positions at a time) and
  writes dot + c·(max − abs) after the last tile.  Over the extended reals a change of float format is the identity, sums
  may be regrouped freely, and — every product of absolute values being nonnegative — a maximum started at zero agrees
  with one started at minus infinity as soon as there is a term; no finiteness of the inputs is used.

  The frames of the two kernel programs are the generated ones; the reference's frame is its generated run with the
  result dropped; the idealization rewrote nothing.  The value claim puts the kernel's run (the totals after every grid
  point, by induction on the point; then the result array from the two tiles written back) beside the reference's run
  (read one operation at a time): both end at the function G of the argument arrays.
-/
import proofs.«140068_j21912923144500_2_alg».proof.Defs
import proofs.«140068_j21912923144500_2_alg».proof.Proof.Gen.Kernel
import proofs.«140068_j21912923144500_2_alg».proof.Proof.Gen.Kernel.Skeleton
import proofs.«140068_j21912923144500_2_alg».proof.Proof.Gen.Kernel.Launch
import proofs.«140068_j21912923144500_2_alg».proof.Proof.Gen.Kernel.Points
import proofs.«140068_j21912923144500_2_alg».proof.Proof.Gen.Kernel.Frame
import proofs.«140068_j21912923144500_2_alg».proof.Proof.Gen.KernelIdeal
import proofs.«140068_j21912923144500_2_alg».proof.Proof.Gen.KernelIdeal.Skeleton
import proofs.«140068_j21912923144500_2_alg».proof.Proof.Gen.KernelIdeal.Launch
import proofs.«140068_j21912923144500_2_alg».proof.Proof.Gen.KernelIdeal.Points
import proofs.«140068_j21912923144500_2_alg».proof.Proof.Gen.KernelIdeal.Frame
import proofs.«140068_j21912923144500_2_alg».proof.Proof.Gen.ReferenceIdeal
import proofs.«140068_j21912923144500_2_alg».proof.Proof.Gen.Pre_finite_inputs
import proofs.«140068_j21912923144500_2_alg».proof.Proof.Gen.KernelIdeal.Value
import proofs.«140068_j21912923144500_2_alg».proof.Proof.Gen.ReferenceIdeal.Run
import proofs.«140068_j21912923144500_2_alg».proof.Proof.Gen.ReferenceIdeal.Read
import proofs.«140068_j21912923144500_2_alg».proof.Proof.Final
import proofs.«140068_j21912923144500_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end, on arguments that agree, at the one function G of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G Cert.KernelIdeal.Inv.cst
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
